-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x5000 : Shape := ⟨2, ![20000, 5000]⟩
abbrev S128x128 : Shape := ⟨2, ![128, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x5000 : S_.BroadcastsInDim S20000x5000 (![] : Fin 0 → Fin S20000x5000.rank)
  reducesTo_S20000x5000_S_d0_1 : S20000x5000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S20000x128 .f32) (main_arg1 : FVec F S20000x5000 .f32) (main_arg2 : FVec F S128x128 .f32) (main_arg3 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x5000 .f32 := Host.absf main_arg1
  let main_cst_0 : FVec F S_ .f32 := constant S_ .f32 0x7F800000#32
  let main_v5 : FVec F S20000x5000 .f32 := broadcastInDim S20000x5000 ![] bcast_S_S20000x5000 main_cst_0
  let main_v6 : IVec S20000x5000 1 := cmpf .olt main_v4 main_v5
  let main_c_1 : IVec S_ 1 := constantI S_ 1 1#1
  let main_v7 : IVec S_ 1 := (fun x v => Host.reduce IntOp.andi x v reducesTo_S20000x5000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S20000x128 : Shape := ⟨2, ![20000, 128]⟩
abbrev S20000x5000 : Shape := ⟨2, ![20000, 5000]⟩
abbrev S128x128 : Shape := ⟨2, ![128, 128]⟩
abbrev S128 : Shape := ⟨1, ![128]⟩
abbrev S2x5000x256 : Shape := ⟨3, ![2, 5000, 256]⟩
abbrev S400x5000 : Shape := ⟨2, ![400, 5000]⟩
abbrev S400x128 : Shape := ⟨2, ![400, 128]⟩
abbrev S1x5000x256 : Shape := ⟨3, ![1, 5000, 256]⟩
abbrev S5000x256 : Shape := ⟨2, ![5000, 256]⟩
abbrev S400x256 : Shape := ⟨2, ![400, 256]⟩
abbrev S5000x128 : Shape := ⟨2, ![5000, 128]⟩
abbrev S_ : Shape := ⟨0, ![]⟩
abbrev S1x128 : Shape := ⟨2, ![1, 128]⟩
abbrev S400 : Shape := ⟨1, ![400]⟩
abbrev S400x1 : Shape := ⟨2, ![400, 1]⟩

abbrev nBuf : Space → Nat
  | .hbm => 18
  | .vmem => 13
  | .smem => 0
  | _ => 0

abbrev bufTy : (tb : Table) → Fin (tcTables nBuf tb) → BufTy
  | .hbm, ⟨0, _⟩ => ⟨S20000x128, .f32⟩
  | .hbm, ⟨1, _⟩ => ⟨S20000x5000, .f32⟩
  | .hbm, ⟨2, _⟩ => ⟨S128x128, .f32⟩
  | .hbm, ⟨3, _⟩ => ⟨S128, .f32⟩
  | .hbm, ⟨4, _⟩ => ⟨S2x5000x256, .f32⟩
  | .hbm, ⟨5, _⟩ => ⟨S1x5000x256, .f32⟩
  | .hbm, ⟨6, _⟩ => ⟨S5000x256, .f32⟩
  | .hbm, ⟨7, _⟩ => ⟨S1x5000x256, .f32⟩
  | .hbm, ⟨8, _⟩ => ⟨S5000x256, .f32⟩
  | .hbm, ⟨9, _⟩ => ⟨S5000x256, .f32⟩
  | .hbm, ⟨10, _⟩ => ⟨S5000x128, .f32⟩
  | .hbm, ⟨11, _⟩ => ⟨S5000x128, .f32⟩
  | .hbm, ⟨12, _⟩ => ⟨S_, .f32⟩
  | .hbm, ⟨13, _⟩ => ⟨S5000x128, .f32⟩
  | .hbm, ⟨14, _⟩ => ⟨S5000x128, .f32⟩
  | .hbm, ⟨15, _⟩ => ⟨S5000x128, .f32⟩
  | .hbm, ⟨16, _⟩ => ⟨S1x128, .f32⟩
  | .hbm, ⟨17, _⟩ => ⟨S20000x128, .f32⟩
  | .local _ .vmem, ⟨0, _⟩ => ⟨S400x5000, .f32⟩
  | .local _ .vmem, ⟨1, _⟩ => ⟨S400x5000, .f32⟩
  | .local _ .vmem, ⟨2, _⟩ => ⟨S400x128, .f32⟩
  | .local _ .vmem, ⟨3, _⟩ => ⟨S400x128, .f32⟩
  | .local _ .vmem, ⟨4, _⟩ => ⟨S128x128, .f32⟩
  | .local _ .vmem, ⟨5, _⟩ => ⟨S1x5000x256, .f32⟩
  | .local _ .vmem, ⟨6, _⟩ => ⟨S5000x256, .f32⟩
  | .local _ .vmem, ⟨7, _⟩ => ⟨S400x5000, .f32⟩
  | .local _ .vmem, ⟨8, _⟩ => ⟨S400x5000, .f32⟩
  | .local _ .vmem, ⟨9, _⟩ => ⟨S5000x128, .f32⟩
  | .local _ .vmem, ⟨10, _⟩ => ⟨S1x128, .f32⟩
  | .local _ .vmem, ⟨11, _⟩ => ⟨S400x128, .f32⟩
  | .local _ .vmem, ⟨12, _⟩ => ⟨S400x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v19 : BitVec 1 := Scalar.cmpi .eq arg1 c24_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5000x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x5000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S400x128_S400x128_0_0 : ∀ a, (![0, 0] : Fin 2 → Nat) a + S400x128.size a ≤ S400x128.size a
  h_S400x128 : 0 < S400x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S400x128_S400x128_S400x256_d1 : Shape.Concatenates [S400x128, S400x128] S400x256 1
  inb_S400x5000_S400x5000_0_0 : ∀ a, (![0, 0] : Fin 2 → Nat) a + S400x5000.size a ≤ S400x5000.size a
  h_S400x5000 : 0 < S400x5000.numel
  inb_S1x5000x256_S1x5000x256_0_0_0 : ∀ a, (![0, 0, 0] : Fin 3 → Nat) a + S1x5000x256.size a ≤ S1x5000x256.size a
  h_S1x5000x256 : 0 < S1x5000x256.numel
  shapeCasts_S1x5000x256_S5000x256 : S1x5000x256.ShapeCasts S5000x256
  shapeCasts_S5000x256_S1x5000x256 : S5000x256.ShapeCasts S1x5000x256
  slices_S2x5000x256_S1x5000x256_0_0_0 : S2x5000x256.Slices ![0, 0, 0] S1x5000x256
  slices_S2x5000x256_S1x5000x256_1_0_0 : S2x5000x256.Slices ![1, 0, 0] S1x5000x256
  slices_S5000x256_S5000x128_0_0 : S5000x256.Slices ![0, 0] S5000x128
  slices_S5000x256_S5000x128_0_128 : S5000x256.Slices ![0, 128] S5000x128
  bcast_S_S5000x128 : S_.BroadcastsInDim S5000x128 (![] : Fin 0 → Fin S5000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S400x5000_S400 : S400x5000.Reduces [1] S400
  shapeCasts_S400_S400x1 : S400.ShapeCasts S400x1
  broadcasts_S400x1_S400x128 : S400x1.Broadcasts S400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  dot_S400x128_S128x128_S400x128_1_0_0_1_n_n_wf : DotDims.WF S400x128 S128x128 S400x128 [1] [0] [0] [1] [] []
  dot_S400x5000_S400x256_S5000x256_0_0_1_1_n_n_wf : DotDims.WF S400x5000 S400x256 S5000x256 [0] [0] [1] [1] [] []
  dot_S400x5000_S5000x128_S400x128_1_0_0_1_n_n_wf : DotDims.WF S400x5000 S5000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x5000.size a ≤ S20000x5000.size a
  hwx0_0 : ∀ i : grid0.Coords, EltTy.bits .f32 = 32 ∨ (Rect.block (s := S20000x5000) S400x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x128.size a ≤ S20000x128.size a
  hwx0_1 : ∀ i : grid0.Coords, EltTy.bits .f32 = 32 ∨ (Rect.block (s := S20000x128) S400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x5000x256.size a ≤ S2x5000x256.size a
  hwx0_3 : ∀ i : grid0.Coords, EltTy.bits .f32 = 32 ∨ (Rect.block (s := S2x5000x256) S1x5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x5000.size a ≤ S20000x5000.size a
  hwx1_0 : ∀ i : grid1.Coords, EltTy.bits .f32 = 32 ∨ (Rect.block (s := S20000x5000) S400x5000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S5000x128.size a
  hwx1_1 : ∀ i : grid1.Coords, EltTy.bits .f32 = 32 ∨ (Rect.block (s := S5000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S20000x128.size a
  hwx1_3 : ∀ i : grid1.Coords, EltTy.bits .f32 = 32 ∨ (Rect.block (s := S20000x128) S400x128.size (cc1_transform_3 i) (hinb1_3 i)).WholeWords (EltTy.packing .f32)

variable [Facts₀]

def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x5000_S400x256_S5000x256_0_0_1_1_n_n : DotDims S400x5000 S400x256 S5000x256 where
  lhsContracting := [0]
  rhsContracting := [0]
  lhsNonContracting := [1]
  rhsNonContracting := [1]
  lhsBatch := []
  rhsBatch := []
  wf := dot_S400x5000_S400x256_S5000x256_0_0_1_1_n_n_wf
def dot_S400x5000_S5000x128_S400x128_1_0_0_1_n_n : DotDims S400x5000 S5000x128 S400x128 where
  lhsContracting := [1]
  rhsContracting := [0]
  lhsNonContracting := [0]
  rhsNonContracting := [1]
  lhsBatch := []
  rhsBatch := []
  wf := dot_S400x5000_S5000x128_S400x128_1_0_0_1_n_n_wf

abbrev win0_0 : Pipeline.Window sig grid0 :=
  Pipeline.Window.ofSpec (Memref.whole main_arg1) S400x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x5000x256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S400x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S20000x128 : Shape := ⟨2, ![20000, 128]⟩
abbrev S20000x5000 : Shape := ⟨2, ![20000, 5000]⟩
abbrev S128x128 : Shape := ⟨2, ![128, 128]⟩
abbrev S128 : Shape := ⟨1, ![128]⟩
abbrev S_ : Shape := ⟨0, ![]⟩
abbrev S20000 : Shape := ⟨1, ![20000]⟩
abbrev S5000 : Shape := ⟨1, ![5000]⟩
abbrev S5000x20000 : Shape := ⟨2, ![5000, 20000]⟩
abbrev S5000x128 : Shape := ⟨2, ![5000, 128]⟩
abbrev S5000x1 : Shape := ⟨2, ![5000, 1]⟩
abbrev S20000x1 : Shape := ⟨2, ![20000, 1]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S20000x5000, .f32⟩
  | .hbm, ⟨2, _⟩ => ⟨S128x128, .f32⟩
  | .hbm, ⟨3, _⟩ => ⟨S128, .f32⟩
  | .hbm, ⟨4, _⟩ => ⟨S20000x128, .f32⟩
  | .hbm, ⟨5, _⟩ => ⟨S_, .f32⟩
  | .hbm, ⟨6, _⟩ => ⟨S20000, .f32⟩
  | .hbm, ⟨7, _⟩ => ⟨S_, .f32⟩
  | .hbm, ⟨8, _⟩ => ⟨S20000, .f32⟩
  | .hbm, ⟨9, _⟩ => ⟨S20000, .f32⟩
  | .hbm, ⟨10, _⟩ => ⟨S_, .f32⟩
  | .hbm, ⟨11, _⟩ => ⟨S5000, .f32⟩
  | .hbm, ⟨12, _⟩ => ⟨S_, .f32⟩
  | .hbm, ⟨13, _⟩ => ⟨S5000, .f32⟩
  | .hbm, ⟨14, _⟩ => ⟨S5000, .f32⟩
  | .hbm, ⟨15, _⟩ => ⟨S5000x20000, .f32⟩
  | .hbm, ⟨16, _⟩ => ⟨S5000x128, .f32⟩
  | .hbm, ⟨17, _⟩ => ⟨S5000x1, .f32⟩
  | .hbm, ⟨18, _⟩ => ⟨S5000x128, .f32⟩
  | .hbm, ⟨19, _⟩ => ⟨S5000x128, .f32⟩
  | .hbm, ⟨20, _⟩ => ⟨S20000x128, .f32⟩
  | .hbm, ⟨21, _⟩ => ⟨S20000x1, .f32⟩
  | .hbm, ⟨22, _⟩ => ⟨S20000x128, .f32⟩
  | .hbm, ⟨23, _⟩ => ⟨S20000x128, .f32⟩
  | .hbm, ⟨24, _⟩ => ⟨S1x128, .f32⟩
  | .hbm, ⟨25, _⟩ => ⟨S20000x128, .f32⟩
  | .hbm, ⟨26, _⟩ => ⟨S20000x128, .f32⟩
  | .hbm, ⟨27, _⟩ => ⟨S_, .f32⟩
  | .hbm, ⟨28, _⟩ => ⟨S20000x128, .f32⟩
  | .hbm, ⟨29, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  reducesTo_S20000x5000_S20000_d1 : S20000x5000.ReducesTo [1] S20000
  h_S_ : 0 < S_.numel
  bcast_S_S20000 : S_.BroadcastsInDim S20000 (![] : Fin 0 → Fin S20000.rank)
  reducesTo_S20000x5000_S5000_d0 : S20000x5000.ReducesTo [0] S5000
  bcast_S_S5000 : S_.BroadcastsInDim S5000 (![] : Fin 0 → Fin S5000.rank)
  transposes_S20000x5000_S5000x20000_1_0 : S20000x5000.Transposes [1, 0] S5000x20000
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  dot_S20000x128_S128x128_S20000x128_1_0_0_1_n_n_wf : DotDims.WF S20000x128 S128x128 S20000x128 [1] [0] [0] [1] [] []
  dot_S5000x20000_S20000x128_S5000x128_1_0_0_1_n_n_wf : DotDims.WF S5000x20000 S20000x128 S5000x128 [1] [0] [0] [1] [] []
  dot_S20000x5000_S5000x128_S20000x128_1_0_0_1_n_n_wf : DotDims.WF S20000x5000 S5000x128 S20000x128 [1] [0] [0] [1] [] []

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S5000x20000_S20000x128_S5000x128_1_0_0_1_n_n : DotDims S5000x20000 S20000x128 S5000x128 where
  lhsContracting := [1]
  rhsContracting := [0]
  lhsNonContracting := [0]
  rhsNonContracting := [1]
  lhsBatch := []
  rhsBatch := []
  wf := dot_S5000x20000_S20000x128_S5000x128_1_0_0_1_n_n_wf
def dot_S20000x5000_S5000x128_S20000x128_1_0_0_1_n_n : DotDims S20000x5000 S5000x128 S20000x128 where
  lhsContracting := [1]
  rhsContracting := [0]
  lhsNonContracting := [0]
  rhsNonContracting := [1]
  lhsBatch := []
  rhsBatch := []
  wf := dot_S20000x5000_S5000x128_S20000x128_1_0_0_1_n_n_wf

class Facts : Prop extends Facts₀ where

variable [Facts]
-- ==== Proof.Kernel.R0Runs.lean ====
/-
  The first kernel region (the fused projection and gathering pass), at the buffer contents `V` it is entered from:
  what its body's runs are stated over. The grid is 2 × 25: the first coordinate picks a half of the 20000 nodes,
  the second walks that half's 25 blocks of 400 rows. The body zeroes its accumulator at the first block of a half
  (second coordinate 0), adds the block's contribution at every point, and copies the accumulator into the output
  block at the last block of a half (second coordinate 24); at every other point the output buffer is left alone.
-/
import proofs.«180039_j69604239999586_2_alg».proof.Proof.Gen.Kernel.Launch
import proofs.«180039_j69604239999586_2_alg».proof.Proof.Gen.Kernel.Skeleton
import proofs.«180039_j69604239999586_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions, decided over the grid -/

/-- The accumulator is zeroed: the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- The accumulator is copied out: the second grid coordinate is 24. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where nothing is copied out the output window is idle and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x5000x256 .f32 := (Memref.whole cc0_stg3_0 : Memref sig .tc .vmem S1x5000x256 .f32).view
abbrev ms0_0 (t : Fin cfg0.N) : Memref sig .tc .vmem S400x5000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5000x256 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from one point to the next. -/
abbrev scM0_0 : Memref sig .tc .vmem S5000x256 .f32 := Memref.whole cc0_scratch0
abbrev VS0_0 : View sig .tc .vmem S5000x256 .f32 := scM0_0.view

/-- The core's scoped buffers that are neither this region's staging buffers nor its accumulator (the second region's
    staging buffers), each whole at some contents: they ride along untouched. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the region hands its body besides the windows: the accumulator at some contents, the other scoped buffers,
    the generator register at some state. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.Kernel.Hand

end
-- ==== Proof.Kernel.R0RunA.lean ====
/-
  The first region's body run whole in the case "accumulator zeroed, nothing copied out": the pieces each buffer it stores into ends with are found
  by running it.
-/
import proofs.«180039_j69604239999586_2_alg».proof.Proof.Kernel.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first block of a half: the accumulator, held at anything, is zeroed and the block's contribution added; the output
    buffer, at contents `xi3`, is handed back untouched. -/
noncomputable def kernelRun0_A (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : cond0_0 i) (hc1 : ¬cond0_1 i)
    (x0 : Vec F S400x5000 .f32) (x1 : Vec F S400x128 .f32) (x2 : Vec F S128x128 .f32) :
    Σ' (L3 : List (View.Piece (Elt F) S1x5000x256 .f32)), { LS0 : List (View.Piece (Elt F) S5000x256 .f32) //
      ∀ (xi3 : Vec F S1x5000x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_pass2_kernel i arg2 harg2 arg3 harg3 arg4 harg4 arg5 harg5 arg6 harg6) K } := by
  refine ⟨[], ?_, fun xi3 E K => ?run⟩
  case run =>
    simp only [cc0__fused_pass2_kernel_eq_skeleton]; unfold cc0__fused_pass2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Kernel.R0RunB.lean ====
/-
  The first region's body run whole in the case "accumulator kept, nothing copied out": the pieces each buffer it stores into ends with are found
  by running it.
-/
import proofs.«180039_j69604239999586_2_alg».proof.Proof.Kernel.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle block of a half: the accumulator, at what the point before left (`xs0`), gets the block's contribution; the
    output buffer, at contents `xi3`, is handed back untouched. -/
noncomputable def kernelRun0_B (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : ¬cond0_1 i)
    (x0 : Vec F S400x5000 .f32) (x1 : Vec F S400x128 .f32) (x2 : Vec F S128x128 .f32) (xs0 : Vec F S5000x256 .f32) :
    Σ' (L3 : List (View.Piece (Elt F) S1x5000x256 .f32)), { LS0 : List (View.Piece (Elt F) S5000x256 .f32) //
      ∀ (xi3 : Vec F S1x5000x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_pass2_kernel i arg2 harg2 arg3 harg3 arg4 harg4 arg5 harg5 arg6 harg6) K } := by
  refine ⟨[], ?_, fun xi3 E K => ?run⟩
  case run =>
    simp only [cc0__fused_pass2_kernel_eq_skeleton]; unfold cc0__fused_pass2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Kernel.R0RunC.lean ====
/-
  The first region's body run whole in the case "accumulator kept and copied out": the pieces each buffer it stores into ends with are found
  by running it.
-/
import proofs.«180039_j69604239999586_2_alg».proof.Proof.Kernel.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last block of a half: the accumulator, at what the point before left (`xs0`), gets the block's contribution and is
    then copied into the output buffer, held at anything. -/
noncomputable def kernelRun0_C (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : cond0_1 i)
    (x0 : Vec F S400x5000 .f32) (x1 : Vec F S400x128 .f32) (x2 : Vec F S128x128 .f32) (xs0 : Vec F S5000x256 .f32) :
    Σ' (L3 : List (View.Piece (Elt F) S1x5000x256 .f32)), { LS0 : List (View.Piece (Elt F) S5000x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__fused_pass2_kernel i arg2 harg2 arg3 harg3 arg4 harg4 arg5 harg5 arg6 harg6) K } := by
  refine ⟨?_, ?_, fun E K => ?run⟩
  case run =>
    simp only [cc0__fused_pass2_kernel_eq_skeleton]; unfold cc0__fused_pass2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Kernel.R0.lean ====
/-
  The first kernel region at the entry contents `V`: what each case of its body leaves in the output buffer and in the
  accumulator, the accumulation point by point, the region invariant that carries the accumulator from a point to the
  next, the proof data and the body obligation.
-/
import proofs.«180039_j69604239999586_2_alg».proof.Proof.Kernel.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Where nothing is copied out the output buffer gets no piece: a placeholder nothing consults. -/
def out0_A_3 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : cond0_0 i) (hc1 : ¬cond0_1 i) (x0 : Vec F S400x5000 .f32) (x1 : Vec F S400x128 .f32) (x2 : Vec F S128x128 .f32) : Vec F S1x5000x256 .f32 :=
  VO0_3.read (Elt F) (VO0_3.writes (Elt F) VO0_3.junk (kernelRun0_A c i arg2 harg2 arg3 harg3 arg4 harg4 arg5 harg5 arg6 harg6 hc0 hc1 x0 x1 x2).1)
/-- The pieces stored into the accumulator cover it. -/
theorem scover0_A_0 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : cond0_0 i) (hc1 : ¬cond0_1 i) (x0 : Vec F S400x5000 .f32) (x1 : Vec F S400x128 .f32) (x2 : Vec F S128x128 .f32) (y : S5000x256.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S5000x256.size (by sl_kernel_rfl) y
/-- What the first block of a half leaves in the accumulator. -/
def sout0_A_0 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : cond0_0 i) (hc1 : ¬cond0_1 i) (x0 : Vec F S400x5000 .f32) (x1 : Vec F S400x128 .f32) (x2 : Vec F S128x128 .f32) : Vec F S5000x256 .f32 :=
  VS0_0.read (Elt F) (VS0_0.writes (Elt F) VS0_0.junk (kernelRun0_A c i arg2 harg2 arg3 harg3 arg4 harg4 arg5 harg5 arg6 harg6 hc0 hc1 x0 x1 x2).2.1)

def out0_B_3 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : ¬cond0_1 i) (x0 : Vec F S400x5000 .f32) (x1 : Vec F S400x128 .f32) (x2 : Vec F S128x128 .f32) (xs0 : Vec F S5000x256 .f32) : Vec F S1x5000x256 .f32 :=
  VO0_3.read (Elt F) (VO0_3.writes (Elt F) VO0_3.junk (kernelRun0_B c i arg2 harg2 arg3 harg3 arg4 harg4 arg5 harg5 arg6 harg6 hc0 hc1 x0 x1 x2 xs0).1)
theorem scover0_B_0 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : ¬cond0_1 i) (x0 : Vec F S400x5000 .f32) (x1 : Vec F S400x128 .f32) (x2 : Vec F S128x128 .f32) (xs0 : Vec F S5000x256 .f32) (y : S5000x256.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S5000x256.size (by sl_kernel_rfl) y
/-- What a middle block leaves in the accumulator, over what the point before left. -/
def sout0_B_0 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : ¬cond0_1 i) (x0 : Vec F S400x5000 .f32) (x1 : Vec F S400x128 .f32) (x2 : Vec F S128x128 .f32) (xs0 : Vec F S5000x256 .f32) : Vec F S5000x256 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- The copy of the accumulator covers the output buffer. -/
theorem cover0_C_3 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : cond0_1 i) (x0 : Vec F S400x5000 .f32) (x1 : Vec F S400x128 .f32) (x2 : Vec F S128x128 .f32) (xs0 : Vec F S5000x256 .f32) (y : S1x5000x256.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x5000x256.size (by sl_kernel_rfl) y
/-- What the last block of a half leaves in the output buffer. -/
def out0_C_3 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : cond0_1 i) (x0 : Vec F S400x5000 .f32) (x1 : Vec F S400x128 .f32) (x2 : Vec F S128x128 .f32) (xs0 : Vec F S5000x256 .f32) : Vec F S1x5000x256 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C_0 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : cond0_1 i) (x0 : Vec F S400x5000 .f32) (x1 : Vec F S400x128 .f32) (x2 : Vec F S128x128 .f32) (xs0 : Vec F S5000x256 .f32) (y : S5000x256.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S5000x256.size (by sl_kernel_rfl) y
/-- And in the accumulator. -/
def sout0_C_0 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : cond0_1 i) (x0 : Vec F S400x5000 .f32) (x1 : Vec F S400x128 .f32) (x2 : Vec F S128x128 .f32) (xs0 : Vec F S5000x256 .f32) : Vec F S5000x256 .f32 :=
  VS0_0.read (Elt F) (VS0_0.writes (Elt F) VS0_0.junk (kernelRun0_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-! ## The cases at a grid point -/

/-- The first block of a half at point `t`: the output buffer's placeholder and the accumulator. -/
def pA (c : Dev nD) (t : Fin cfg0.N) (h0 : t.val % 25 = 0) (h1 : ¬t.val % 25 = 24) : Vec F S1x5000x256 .f32 × Vec F S5000x256 .f32 :=
  (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t))
/-- A middle block at point `t`, over the accumulator `xs0` the point before left. -/
def pB (c : Dev nD) (t : Fin cfg0.N) (h0 : ¬t.val % 25 = 0) (h1 : ¬t.val % 25 = 24) (xs0 : Vec F S5000x256 .f32) : Vec F S1x5000x256 .f32 × Vec F S5000x256 .f32 :=
  (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs0,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs0)
/-- The last block of a half at point `t`, over the accumulator `xs0` the point before left. -/
def pC (c : Dev nD) (t : Fin cfg0.N) (h0 : ¬t.val % 25 = 0) (h1 : t.val % 25 = 24) (xs0 : Vec F S5000x256 .f32) : Vec F S1x5000x256 .f32 × Vec F S5000x256 .f32 :=
  (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs0,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs0)

/-! ## The accumulation -/

/-- What the output buffer and the accumulator hold after the body at position `n`: the case the position is in, the
    accumulator of a middle or last block read from what position `n - 1` left. -/
def outsAt0 (c : Dev nD) : (n : ℕ) → n < cfg0.N → Vec F S1x5000x256 .f32 × Vec F S5000x256 .f32
  | 0, hn => pA V c ⟨0, hn⟩ (Nat.zero_mod _) (by show ¬ 0 % 25 = 24; decide)
  | n + 1, hn =>
    if h0 : (n + 1) % 25 = 0 then pA V c ⟨n + 1, hn⟩ h0 (by show ¬ (n + 1) % 25 = 24; omega)
    else if h1 : (n + 1) % 25 = 24 then pC V c ⟨n + 1, hn⟩ h0 h1 (outsAt0 c n (Nat.lt_of_succ_lt hn)).2
    else pB V c ⟨n + 1, hn⟩ h0 h1 (outsAt0 c n (Nat.lt_of_succ_lt hn)).2

theorem outsAt0_A (c : Dev nD) (t : Fin cfg0.N) (h0 : t.val % 25 = 0) (h1 : ¬t.val % 25 = 24) :
    outsAt0 V c t.val t.isLt = pA V c t h0 h1 := by
  obtain ⟨n, hn⟩ := t
  cases n with
  | zero => rfl
  | succ n => exact (dif_pos h0).trans rfl

theorem outsAt0_B (c : Dev nD) (t : Fin cfg0.N) (h0 : ¬t.val % 25 = 0) (h1 : ¬t.val % 25 = 24) :
    outsAt0 V c t.val t.isLt = pB V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 25 = 0) (h1 : t.val % 25 = 24) :
    outsAt0 V c t.val t.isLt = pC V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The region invariant -/

/-- Before position `n`: at the region's entry the accumulator at anything; afterwards at what the point before left,
    beside the scoped buffers that ride along and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ Rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-! ## The proof data -/

/-- The arrays as the region finds them; after the body each input's buffer at its block, the output's at the
    accumulation's first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the inputs' buffers hold their blocks; the point's position in its half says which case it
    is in; the invariant hands the body the accumulator at what the point before left (at anything at the region's
    entry) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  by_cases h1 : t.val % 25 = 24
  · have h0 : ¬t.val % 25 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [outsAt0_C V c t h0 h1]
    unfold pC out0_C_3 sout0_C_0; (try dsimp only)
    rw [PhiS_castSucc V c t, PhiS_pos V c _ _ hz]
    iintro ⟨⟨⟨HS0, HR⟩, Hg⟩, Ho, ⟨%d0, H0⟩, ⟨%d1, H1⟩, ⟨%d2, H2⟩, ⟨%d3, H3⟩⟩
    iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    by_cases h0 : t.val % 25 = 0
    · rw [outsAt0_A V c t h0 h1]
      unfold pA sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
    · have hz : t.val ≠ 0 := fun h => h0 (by rw [h])
      rw [outsAt0_B V c t h0 h1]
      unfold pB sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region's entry hands the body is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives back what the entry handed it: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HR⟩, Hg⟩
  isplitl [HS0 HR]
  · isplitl [HS0]
    · iexists _; iexact HS0
    iexact HR
  iexact Hg

end

end Cert.Kernel.Hand

end
-- ==== Proof.Kernel.R1.lean ====
/- Region 1 of @main (custom_call 1, the kernel `cc1__h_m_kernel`, pipeline 1): the per-region half of its frame
   certificate, at any `F` and at a PARAMETER `V` — the TensorCore's buffer contents when the region is entered.
   Each window's block at a grid point read off `V`; what an input's staging buffer holds when the body is called
   (its block, fetched at that point or carried over from the point before); what the body leaves in the output's
   buffer (one whole store of the normalised product plus bias, clamped below at zero, over the three input blocks); the
   body's triple; the pipeline's proof data; and the body obligation at every grid point. -/
import proofs.«180039_j69604239999586_2_alg».proof.Proof.Gen.Kernel.Launch
import proofs.«180039_j69604239999586_2_alg».proof.Proof.Gen.Kernel.Skeleton
import proofs.«180039_j69604239999586_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of length 5000 is decided by a structural recursion that goes
-- once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a 400x5000 block of rows of the first operand, a new block at every point): its current staging
    buffer holds its block at every point, for ANY proof data whose array is `V`'s (`hA`) and whose body leaves the
    block in place (`hafter`). The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the whole 5000x128 second operand, one block for every point, fetched at the first point only):
    at a later point the block index has not moved, so the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the whole 1x128 bias row, one block for every point, fetched at the first point only): likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S400x5000 := Rect.unit (s := S400x5000) ![0, 0] S400x5000.size inb_S400x5000_S400x5000_0_0
abbrev r1_1 : Rect S5000x128 := Rect.unit (s := S5000x128) ![0, 0] S5000x128.size inb_S5000x128_S5000x128_0_0
abbrev r1_2 : Rect S1x128 := Rect.unit (s := S1x128) ![0, 0] S1x128.size inb_S1x128_S1x128_0_0
abbrev r1_3 : Rect S400x128 := Rect.unit (s := S400x128) ![0, 0] S400x128.size inb_S400x128_S400x128_0_0

/-! ## What the body leaves in the output window's buffer -/

/-- Window 3's staging buffer after the body, from the input windows' blocks: its one store, of the whole buffer. -/
def out1_3 (x0 : Vec F S400x5000 .f32) (x1 : Vec F S5000x128 .f32) (x2 : Vec F S1x128 .f32) : Vec F S400x128 .f32 :=
  View.canon [⟨r1_3, k1_pay1 (View.ld x0 r1_0) (View.ld x1 r1_1) (View.ld x2 r1_2)⟩]

/-- The one store is of the whole buffer, so it covers it. -/
theorem cover1_3 (p0 : Vec F S400x128 .f32) (y : S400x128.Idx) :
    ∃ pc ∈ ([⟨r1_3, p0⟩] : List (View.Piece (Elt F) S400x128 .f32)), y ∈ pc.1.set :=
  View.cover_of_tiled [⟨r1_3, p0⟩] S400x128.size (by rfl) y

/-! ## The body's triple -/

set_option maxHeartbeats 1000000 in
/-- The kernel body on whole staging memrefs, the inputs' at contents `x0 x1 x2` and the output's at anything, runs to
    the continuation holding the inputs' as they were and the output's at `out1_3` of the inputs'. The body also loads
    the output's buffer before it stores: the loaded value is read by nothing. -/
theorem sound_kernel1 (c : Dev nD) (E : Set ℕ) (i : grid1.Coords) (arg1 : Memref sig .tc .vmem S400x5000 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S400x128 .f32) (harg4 : arg4.IsWhole)
    (x0 : Vec F S400x5000 .f32) (x1 : Vec F S5000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__h_m_kernel i arg1 harg1 arg2 harg2 arg3 harg3 arg4 harg4) K := by
  simp only [cc1__h_m_kernel_eq_skeleton]; unfold cc1__h_m_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.Kernel.Run.lean ====
/-
  The whole program run: the first kernel region, the host lines that add the two halves' partial sums and divide
  by the hyperedge degrees, the second kernel region. Between two of these every unscoped buffer of the core is
  held at named contents: the launch memory, then the first region's output array at what its write-backs leave,
  then the host lines' results, then the second region's output array at what its write-backs leave. At the end
  every buffer is read against the last of these: the arguments are as launched and the result array is what the
  second region's points wrote back.
-/
import proofs.«180039_j69604239999586_2_alg».proof.Proof.Kernel.R0
import proofs.«180039_j69604239999586_2_alg».proof.Proof.Kernel.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host lines. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W1_main_arg0 (c : Dev nD) : W1 m ρ c (Proc.devRef .tc main_arg0) = m ((c : Thread nD τ).loc main_arg0) :=
  (W1_arr m ρ c 1).trans (((dat0 (V0 m ρ) c).arrAt_in 1 rfl _).trans (A_eq0 (V0 m ρ) c 1))
theorem W1_main_arg1 (c : Dev nD) : W1 m ρ c (Proc.devRef .tc main_arg1) = m ((c : Thread nD τ).loc main_arg1) :=
  (W1_arr m ρ c 0).trans (((dat0 (V0 m ρ) c).arrAt_in 0 rfl _).trans (A_eq0 (V0 m ρ) c 0))
theorem W1_main_arg2 (c : Dev nD) : W1 m ρ c (Proc.devRef .tc main_arg2) = m ((c : Thread nD τ).loc main_arg2) :=
  (W1_arr m ρ c 2).trans (((dat0 (V0 m ρ) c).arrAt_in 2 rfl _).trans (A_eq0 (V0 m ρ) c 2))
theorem W1_main_arg3 (c : Dev nD) : W1 m ρ c (Proc.devRef .tc main_arg3) = m ((c : Thread nD τ).loc main_arg3) :=
  W1_of_ne m ρ c main_arg3 (by decide)
/-- The first region's output array after it. -/
theorem W1_main_v0 (c : Dev nD) : W1 m ρ c (Proc.devRef .tc main_v0) = (dat0 (V0 m ρ) c).arrAt 3 cfg0.N := W1_arr m ρ c 3

theorem W2_main_arg0 (c : Dev nD) : W2 m ρ c (Proc.devRef .tc main_arg0) = m ((c : Thread nD τ).loc main_arg0) :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg0 m ρ c)
theorem W2_main_arg1 (c : Dev nD) : W2 m ρ c (Proc.devRef .tc main_arg1) = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg1 m ρ c)
theorem W2_main_arg2 (c : Dev nD) : W2 m ρ c (Proc.devRef .tc main_arg2) = m ((c : Thread nD τ).loc main_arg2) :=
  (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg2 m ρ c)
theorem W2_main_arg3 (c : Dev nD) : W2 m ρ c (Proc.devRef .tc main_arg3) = m ((c : Thread nD τ).loc main_arg3) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg3 m ρ c)

theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg1 (c : Dev nD) : W3 m ρ c (Proc.devRef .tc main_arg1) = m ((c : Thread nD τ).loc main_arg1) :=
  (W3_arr m ρ c 0).trans (((dat1 (V2 m ρ) c).arrAt_in 0 rfl _).trans ((A_eq1 (V2 m ρ) c 0).trans (W2_main_arg1 m ρ c)))
theorem W3_main_arg2 (c : Dev nD) : W3 m ρ c (Proc.devRef .tc main_arg2) = m ((c : Thread nD τ).loc main_arg2) :=
  (W3_of_ne m ρ c main_arg2 (by decide)).trans (W2_main_arg2 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
/-- The result array after the second region. -/
theorem W3_main_v12 (c : Dev nD) : W3 m ρ c (Proc.devRef .tc main_v12) = (dat1 (V2 m ρ) c).arrAt 3 cfg1.N := W3_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at the launch contents, left at `W1`. The generator register
    goes into the region invariant and comes back; the accumulator's contents are forgotten at the exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run with the result array and the arguments named: the result is what the second region's write-backs leave,
    the arguments are as launched. -/
theorem run_main : θ_run defs (onTc (τ := τ) (main (F := F))) ⟨m, fun _ => 0, ρ⟩ (fun r => ∀ c : Dev nD,
      r.2.mem ((c.tc : Thread nD τ).loc main_v12) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v12 (by decide))).trans (W3_main_v12 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Hand

end
-- ==== Proof.KernelIdeal.R0Runs.lean ====
/-
  The first kernel region (the fused projection and gathering pass), at the buffer contents `V` it is entered from:
  what its body's runs are stated over. The grid is 2 × 25: the first coordinate picks a half of the 20000 nodes,
  the second walks that half's 25 blocks of 400 rows. The body zeroes its accumulator at the first block of a half
  (second coordinate 0), adds the block's contribution at every point, and copies the accumulator into the output
  block at the last block of a half (second coordinate 24); at every other point the output buffer is left alone.
-/
import proofs.«180039_j69604239999586_2_alg».proof.Proof.Gen.KernelIdeal.Launch
import proofs.«180039_j69604239999586_2_alg».proof.Proof.Gen.KernelIdeal.Skeleton
import proofs.«180039_j69604239999586_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions, decided over the grid -/

/-- The accumulator is zeroed: the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- The accumulator is copied out: the second grid coordinate is 24. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where nothing is copied out the output window is idle and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x5000x256 .f32 := (Memref.whole cc0_stg3_0 : Memref sig .tc .vmem S1x5000x256 .f32).view
abbrev ms0_0 (t : Fin cfg0.N) : Memref sig .tc .vmem S400x5000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S400x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5000x256 .f32 := win0_3.stage (cfg0.slots t 3)
abbrev hs0_3 (t : Fin cfg0.N) : (ms0_3 t).IsWhole := hstage0_3 ((cfg0.slots t 3).cast nbuf0_3)
/-- The accumulator: a whole scoped buffer of the kernel's own, carried from one point to the next. -/
abbrev scM0_0 : Memref sig .tc .vmem S5000x256 .f32 := Memref.whole cc0_scratch0
abbrev VS0_0 : View sig .tc .vmem S5000x256 .f32 := scM0_0.view

/-- The core's scoped buffers that are neither this region's staging buffers nor its accumulator (the second region's
    staging buffers), each whole at some contents: they ride along untouched. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the region hands its body besides the windows: the accumulator at some contents, the other scoped buffers,
    the generator register at some state. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.KernelIdeal.Hand

end
-- ==== Proof.KernelIdeal.R0RunA.lean ====
/-
  The first region's body run whole in the case "accumulator zeroed, nothing copied out": the pieces each buffer it stores into ends with are found
  by running it.
-/
import proofs.«180039_j69604239999586_2_alg».proof.Proof.KernelIdeal.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first block of a half: the accumulator, held at anything, is zeroed and the block's contribution added; the output
    buffer, at contents `xi3`, is handed back untouched. -/
noncomputable def kernelRun0_A (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : cond0_0 i) (hc1 : ¬cond0_1 i)
    (x0 : Vec F S400x5000 .f32) (x1 : Vec F S400x128 .f32) (x2 : Vec F S128x128 .f32) :
    Σ' (L3 : List (View.Piece (Elt F) S1x5000x256 .f32)), { LS0 : List (View.Piece (Elt F) S5000x256 .f32) //
      ∀ (xi3 : Vec F S1x5000x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_pass2_kernel i arg2 harg2 arg3 harg3 arg4 harg4 arg5 harg5 arg6 harg6) K } := by
  refine ⟨[], ?_, fun xi3 E K => ?run⟩
  case run =>
    simp only [cc0__fused_pass2_kernel_eq_skeleton]; unfold cc0__fused_pass2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KernelIdeal.R0RunB.lean ====
/-
  The first region's body run whole in the case "accumulator kept, nothing copied out": the pieces each buffer it stores into ends with are found
  by running it.
-/
import proofs.«180039_j69604239999586_2_alg».proof.Proof.KernelIdeal.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle block of a half: the accumulator, at what the point before left (`xs0`), gets the block's contribution; the
    output buffer, at contents `xi3`, is handed back untouched. -/
noncomputable def kernelRun0_B (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : ¬cond0_1 i)
    (x0 : Vec F S400x5000 .f32) (x1 : Vec F S400x128 .f32) (x2 : Vec F S128x128 .f32) (xs0 : Vec F S5000x256 .f32) :
    Σ' (L3 : List (View.Piece (Elt F) S1x5000x256 .f32)), { LS0 : List (View.Piece (Elt F) S5000x256 .f32) //
      ∀ (xi3 : Vec F S1x5000x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fused_pass2_kernel i arg2 harg2 arg3 harg3 arg4 harg4 arg5 harg5 arg6 harg6) K } := by
  refine ⟨[], ?_, fun xi3 E K => ?run⟩
  case run =>
    simp only [cc0__fused_pass2_kernel_eq_skeleton]; unfold cc0__fused_pass2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KernelIdeal.R0RunC.lean ====
/-
  The first region's body run whole in the case "accumulator kept and copied out": the pieces each buffer it stores into ends with are found
  by running it.
-/
import proofs.«180039_j69604239999586_2_alg».proof.Proof.KernelIdeal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last block of a half: the accumulator, at what the point before left (`xs0`), gets the block's contribution and is
    then copied into the output buffer, held at anything. -/
noncomputable def kernelRun0_C (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : cond0_1 i)
    (x0 : Vec F S400x5000 .f32) (x1 : Vec F S400x128 .f32) (x2 : Vec F S128x128 .f32) (xs0 : Vec F S5000x256 .f32) :
    Σ' (L3 : List (View.Piece (Elt F) S1x5000x256 .f32)), { LS0 : List (View.Piece (Elt F) S5000x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__fused_pass2_kernel i arg2 harg2 arg3 harg3 arg4 harg4 arg5 harg5 arg6 harg6) K } := by
  refine ⟨?_, ?_, fun E K => ?run⟩
  case run =>
    simp only [cc0__fused_pass2_kernel_eq_skeleton]; unfold cc0__fused_pass2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KernelIdeal.R0.lean ====
/-
  The first kernel region at the entry contents `V`: what each case of its body leaves in the output buffer and in the
  accumulator, the accumulation point by point, the region invariant that carries the accumulator from a point to the
  next, the proof data and the body obligation.
-/
import proofs.«180039_j69604239999586_2_alg».proof.Proof.KernelIdeal.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Where nothing is copied out the output buffer gets no piece: a placeholder nothing consults. -/
def out0_A_3 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : cond0_0 i) (hc1 : ¬cond0_1 i) (x0 : Vec F S400x5000 .f32) (x1 : Vec F S400x128 .f32) (x2 : Vec F S128x128 .f32) : Vec F S1x5000x256 .f32 :=
  VO0_3.read (Elt F) (VO0_3.writes (Elt F) VO0_3.junk (kernelRun0_A c i arg2 harg2 arg3 harg3 arg4 harg4 arg5 harg5 arg6 harg6 hc0 hc1 x0 x1 x2).1)
/-- The pieces stored into the accumulator cover it. -/
theorem scover0_A_0 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : cond0_0 i) (hc1 : ¬cond0_1 i) (x0 : Vec F S400x5000 .f32) (x1 : Vec F S400x128 .f32) (x2 : Vec F S128x128 .f32) (y : S5000x256.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S5000x256.size (by sl_kernel_rfl) y
/-- What the first block of a half leaves in the accumulator. -/
def sout0_A_0 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : cond0_0 i) (hc1 : ¬cond0_1 i) (x0 : Vec F S400x5000 .f32) (x1 : Vec F S400x128 .f32) (x2 : Vec F S128x128 .f32) : Vec F S5000x256 .f32 :=
  VS0_0.read (Elt F) (VS0_0.writes (Elt F) VS0_0.junk (kernelRun0_A c i arg2 harg2 arg3 harg3 arg4 harg4 arg5 harg5 arg6 harg6 hc0 hc1 x0 x1 x2).2.1)

def out0_B_3 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : ¬cond0_1 i) (x0 : Vec F S400x5000 .f32) (x1 : Vec F S400x128 .f32) (x2 : Vec F S128x128 .f32) (xs0 : Vec F S5000x256 .f32) : Vec F S1x5000x256 .f32 :=
  VO0_3.read (Elt F) (VO0_3.writes (Elt F) VO0_3.junk (kernelRun0_B c i arg2 harg2 arg3 harg3 arg4 harg4 arg5 harg5 arg6 harg6 hc0 hc1 x0 x1 x2 xs0).1)
theorem scover0_B_0 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : ¬cond0_1 i) (x0 : Vec F S400x5000 .f32) (x1 : Vec F S400x128 .f32) (x2 : Vec F S128x128 .f32) (xs0 : Vec F S5000x256 .f32) (y : S5000x256.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S5000x256.size (by sl_kernel_rfl) y
/-- What a middle block leaves in the accumulator, over what the point before left. -/
def sout0_B_0 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : ¬cond0_1 i) (x0 : Vec F S400x5000 .f32) (x1 : Vec F S400x128 .f32) (x2 : Vec F S128x128 .f32) (xs0 : Vec F S5000x256 .f32) : Vec F S5000x256 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- The copy of the accumulator covers the output buffer. -/
theorem cover0_C_3 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : cond0_1 i) (x0 : Vec F S400x5000 .f32) (x1 : Vec F S400x128 .f32) (x2 : Vec F S128x128 .f32) (xs0 : Vec F S5000x256 .f32) (y : S1x5000x256.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x5000x256.size (by sl_kernel_rfl) y
/-- What the last block of a half leaves in the output buffer. -/
def out0_C_3 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : cond0_1 i) (x0 : Vec F S400x5000 .f32) (x1 : Vec F S400x128 .f32) (x2 : Vec F S128x128 .f32) (xs0 : Vec F S5000x256 .f32) : Vec F S1x5000x256 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C_0 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : cond0_1 i) (x0 : Vec F S400x5000 .f32) (x1 : Vec F S400x128 .f32) (x2 : Vec F S128x128 .f32) (xs0 : Vec F S5000x256 .f32) (y : S5000x256.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S5000x256.size (by sl_kernel_rfl) y
/-- And in the accumulator. -/
def sout0_C_0 (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : cond0_1 i) (x0 : Vec F S400x5000 .f32) (x1 : Vec F S400x128 .f32) (x2 : Vec F S128x128 .f32) (xs0 : Vec F S5000x256 .f32) : Vec F S5000x256 .f32 :=
  VS0_0.read (Elt F) (VS0_0.writes (Elt F) VS0_0.junk (kernelRun0_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-! ## The cases at a grid point -/

/-- The first block of a half at point `t`: the output buffer's placeholder and the accumulator. -/
def pA (c : Dev nD) (t : Fin cfg0.N) (h0 : t.val % 25 = 0) (h1 : ¬t.val % 25 = 24) : Vec F S1x5000x256 .f32 × Vec F S5000x256 .f32 :=
  (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t))
/-- A middle block at point `t`, over the accumulator `xs0` the point before left. -/
def pB (c : Dev nD) (t : Fin cfg0.N) (h0 : ¬t.val % 25 = 0) (h1 : ¬t.val % 25 = 24) (xs0 : Vec F S5000x256 .f32) : Vec F S1x5000x256 .f32 × Vec F S5000x256 .f32 :=
  (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs0,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs0)
/-- The last block of a half at point `t`, over the accumulator `xs0` the point before left. -/
def pC (c : Dev nD) (t : Fin cfg0.N) (h0 : ¬t.val % 25 = 0) (h1 : t.val % 25 = 24) (xs0 : Vec F S5000x256 .f32) : Vec F S1x5000x256 .f32 × Vec F S5000x256 .f32 :=
  (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs0,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs0)

/-! ## The accumulation -/

/-- What the output buffer and the accumulator hold after the body at position `n`: the case the position is in, the
    accumulator of a middle or last block read from what position `n - 1` left. -/
def outsAt0 (c : Dev nD) : (n : ℕ) → n < cfg0.N → Vec F S1x5000x256 .f32 × Vec F S5000x256 .f32
  | 0, hn => pA V c ⟨0, hn⟩ (Nat.zero_mod _) (by show ¬ 0 % 25 = 24; decide)
  | n + 1, hn =>
    if h0 : (n + 1) % 25 = 0 then pA V c ⟨n + 1, hn⟩ h0 (by show ¬ (n + 1) % 25 = 24; omega)
    else if h1 : (n + 1) % 25 = 24 then pC V c ⟨n + 1, hn⟩ h0 h1 (outsAt0 c n (Nat.lt_of_succ_lt hn)).2
    else pB V c ⟨n + 1, hn⟩ h0 h1 (outsAt0 c n (Nat.lt_of_succ_lt hn)).2

theorem outsAt0_A (c : Dev nD) (t : Fin cfg0.N) (h0 : t.val % 25 = 0) (h1 : ¬t.val % 25 = 24) :
    outsAt0 V c t.val t.isLt = pA V c t h0 h1 := by
  obtain ⟨n, hn⟩ := t
  cases n with
  | zero => rfl
  | succ n => exact (dif_pos h0).trans rfl

theorem outsAt0_B (c : Dev nD) (t : Fin cfg0.N) (h0 : ¬t.val % 25 = 0) (h1 : ¬t.val % 25 = 24) :
    outsAt0 V c t.val t.isLt = pB V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 25 = 0) (h1 : t.val % 25 = 24) :
    outsAt0 V c t.val t.isLt = pC V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The region invariant -/

/-- Before position `n`: at the region's entry the accumulator at anything; afterwards at what the point before left,
    beside the scoped buffers that ride along and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ Rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-! ## The proof data -/

/-- The arrays as the region finds them; after the body each input's buffer at its block, the output's at the
    accumulation's first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the inputs' buffers hold their blocks; the point's position in its half says which case it
    is in; the invariant hands the body the accumulator at what the point before left (at anything at the region's
    entry) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  by_cases h1 : t.val % 25 = 24
  · have h0 : ¬t.val % 25 = 0 := by omega
    have hz : t.val ≠ 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [outsAt0_C V c t h0 h1]
    unfold pC out0_C_3 sout0_C_0; (try dsimp only)
    rw [PhiS_castSucc V c t, PhiS_pos V c _ _ hz]
    iintro ⟨⟨⟨HS0, HR⟩, Hg⟩, Ho, ⟨%d0, H0⟩, ⟨%d1, H1⟩, ⟨%d2, H2⟩, ⟨%d3, H3⟩⟩
    iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C_0 c _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _)
  · rw [Dat.leavesExact_idle (dat0 V c) 3 t (idleAt0_3 t (fun h => h1 ((hcond0_1 t).mp h))) (noFlush0_3 t (fun h => h1 ((hcond0_1 t).mp h)))]
    by_cases h0 : t.val % 25 = 0
    · rw [outsAt0_A V c t h0 h1]
      unfold pA sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
    · have hz : t.val ≠ 0 := fun h => h0 (by rw [h])
      rw [outsAt0_B V c t h0 h1]
      unfold pB sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region's entry hands the body is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives back what the entry handed it: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HR⟩, Hg⟩
  isplitl [HS0 HR]
  · isplitl [HS0]
    · iexists _; iexact HS0
    iexact HR
  iexact Hg

end

end Cert.KernelIdeal.Hand

end
-- ==== Proof.KernelIdeal.R1.lean ====
/- Region 1 of @main (custom_call 1, the kernel `cc1__h_m_kernel`, pipeline 1): the per-region half of its frame
   certificate, at any `F` and at a PARAMETER `V` — the TensorCore's buffer contents when the region is entered.
   Each window's block at a grid point read off `V`; what an input's staging buffer holds when the body is called
   (its block, fetched at that point or carried over from the point before); what the body leaves in the output's
   buffer (one whole store of the normalised product plus bias, clamped below at zero, over the three input blocks); the
   body's triple; the pipeline's proof data; and the body obligation at every grid point. -/
import proofs.«180039_j69604239999586_2_alg».proof.Proof.Gen.KernelIdeal.Launch
import proofs.«180039_j69604239999586_2_alg».proof.Proof.Gen.KernelIdeal.Skeleton
import proofs.«180039_j69604239999586_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of length 5000 is decided by a structural recursion that goes
-- once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (a 400x5000 block of rows of the first operand, a new block at every point): its current staging
    buffer holds its block at every point, for ANY proof data whose array is `V`'s (`hA`) and whose body leaves the
    block in place (`hafter`). The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the whole 5000x128 second operand, one block for every point, fetched at the first point only):
    at a later point the block index has not moved, so the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the whole 1x128 bias row, one block for every point, fetched at the first point only): likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S400x5000 := Rect.unit (s := S400x5000) ![0, 0] S400x5000.size inb_S400x5000_S400x5000_0_0
abbrev r1_1 : Rect S5000x128 := Rect.unit (s := S5000x128) ![0, 0] S5000x128.size inb_S5000x128_S5000x128_0_0
abbrev r1_2 : Rect S1x128 := Rect.unit (s := S1x128) ![0, 0] S1x128.size inb_S1x128_S1x128_0_0
abbrev r1_3 : Rect S400x128 := Rect.unit (s := S400x128) ![0, 0] S400x128.size inb_S400x128_S400x128_0_0

/-! ## What the body leaves in the output window's buffer -/

/-- Window 3's staging buffer after the body, from the input windows' blocks: its one store, of the whole buffer. -/
def out1_3 (x0 : Vec F S400x5000 .f32) (x1 : Vec F S5000x128 .f32) (x2 : Vec F S1x128 .f32) : Vec F S400x128 .f32 :=
  View.canon [⟨r1_3, k1_pay1 (View.ld x0 r1_0) (View.ld x1 r1_1) (View.ld x2 r1_2)⟩]

/-- The one store is of the whole buffer, so it covers it. -/
theorem cover1_3 (p0 : Vec F S400x128 .f32) (y : S400x128.Idx) :
    ∃ pc ∈ ([⟨r1_3, p0⟩] : List (View.Piece (Elt F) S400x128 .f32)), y ∈ pc.1.set :=
  View.cover_of_tiled [⟨r1_3, p0⟩] S400x128.size (by rfl) y

/-! ## The body's triple -/

set_option maxHeartbeats 1000000 in
/-- The kernel body on whole staging memrefs, the inputs' at contents `x0 x1 x2` and the output's at anything, runs to
    the continuation holding the inputs' as they were and the output's at `out1_3` of the inputs'. The body also loads
    the output's buffer before it stores: the loaded value is read by nothing. -/
theorem sound_kernel1 (c : Dev nD) (E : Set ℕ) (i : grid1.Coords) (arg1 : Memref sig .tc .vmem S400x5000 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S400x128 .f32) (harg4 : arg4.IsWhole)
    (x0 : Vec F S400x5000 .f32) (x1 : Vec F S5000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__h_m_kernel i arg1 harg1 arg2 harg2 arg3 harg3 arg4 harg4) K := by
  simp only [cc1__h_m_kernel_eq_skeleton]; unfold cc1__h_m_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KernelIdeal.Run.lean ====
/-
  The whole program run: the first kernel region, the host lines that add the two halves' partial sums and divide
  by the hyperedge degrees, the second kernel region. Between two of these every unscoped buffer of the core is
  held at named contents: the launch memory, then the first region's output array at what its write-backs leave,
  then the host lines' results, then the second region's output array at what its write-backs leave. At the end
  every buffer is read against the last of these: the arguments are as launched and the result array is what the
  second region's points wrote back.
-/
import proofs.«180039_j69604239999586_2_alg».proof.Proof.KernelIdeal.R0
import proofs.«180039_j69604239999586_2_alg».proof.Proof.KernelIdeal.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host lines. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

theorem W1_main_arg0 (c : Dev nD) : W1 m ρ c (Proc.devRef .tc main_arg0) = m ((c : Thread nD τ).loc main_arg0) :=
  (W1_arr m ρ c 1).trans (((dat0 (V0 m ρ) c).arrAt_in 1 rfl _).trans (A_eq0 (V0 m ρ) c 1))
theorem W1_main_arg1 (c : Dev nD) : W1 m ρ c (Proc.devRef .tc main_arg1) = m ((c : Thread nD τ).loc main_arg1) :=
  (W1_arr m ρ c 0).trans (((dat0 (V0 m ρ) c).arrAt_in 0 rfl _).trans (A_eq0 (V0 m ρ) c 0))
theorem W1_main_arg2 (c : Dev nD) : W1 m ρ c (Proc.devRef .tc main_arg2) = m ((c : Thread nD τ).loc main_arg2) :=
  (W1_arr m ρ c 2).trans (((dat0 (V0 m ρ) c).arrAt_in 2 rfl _).trans (A_eq0 (V0 m ρ) c 2))
theorem W1_main_arg3 (c : Dev nD) : W1 m ρ c (Proc.devRef .tc main_arg3) = m ((c : Thread nD τ).loc main_arg3) :=
  W1_of_ne m ρ c main_arg3 (by decide)
/-- The first region's output array after it. -/
theorem W1_main_v0 (c : Dev nD) : W1 m ρ c (Proc.devRef .tc main_v0) = (dat0 (V0 m ρ) c).arrAt 3 cfg0.N := W1_arr m ρ c 3

theorem W2_main_arg0 (c : Dev nD) : W2 m ρ c (Proc.devRef .tc main_arg0) = m ((c : Thread nD τ).loc main_arg0) :=
  (StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg0 m ρ c)
theorem W2_main_arg1 (c : Dev nD) : W2 m ρ c (Proc.devRef .tc main_arg1) = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg1 m ρ c)
theorem W2_main_arg2 (c : Dev nD) : W2 m ρ c (Proc.devRef .tc main_arg2) = m ((c : Thread nD τ).loc main_arg2) :=
  (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg2 m ρ c)
theorem W2_main_arg3 (c : Dev nD) : W2 m ρ c (Proc.devRef .tc main_arg3) = m ((c : Thread nD τ).loc main_arg3) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_main_arg3 m ρ c)

theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg1 (c : Dev nD) : W3 m ρ c (Proc.devRef .tc main_arg1) = m ((c : Thread nD τ).loc main_arg1) :=
  (W3_arr m ρ c 0).trans (((dat1 (V2 m ρ) c).arrAt_in 0 rfl _).trans ((A_eq1 (V2 m ρ) c 0).trans (W2_main_arg1 m ρ c)))
theorem W3_main_arg2 (c : Dev nD) : W3 m ρ c (Proc.devRef .tc main_arg2) = m ((c : Thread nD τ).loc main_arg2) :=
  (W3_of_ne m ρ c main_arg2 (by decide)).trans (W2_main_arg2 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
/-- The result array after the second region. -/
theorem W3_main_v12 (c : Dev nD) : W3 m ρ c (Proc.devRef .tc main_v12) = (dat1 (V2 m ρ) c).arrAt 3 cfg1.N := W3_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at the launch contents, left at `W1`. The generator register
    goes into the region invariant and comes back; the accumulator's contents are forgotten at the exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run with the result array and the arguments named: the result is what the second region's write-backs leave,
    the arguments are as launched. -/
theorem run_main : θ_run defs (onTc (τ := τ) (main (F := F))) ⟨m, fun _ => 0, ρ⟩ (fun r => ∀ c : Dev nD,
      r.2.mem ((c.tc : Thread nD τ).loc main_v12) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v12 (by decide))).trans (W3_main_v12 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Hand

end
-- ==== Proof.KernelIdeal.R0Pieces.lean ====
/-
  The first kernel region: what each case of its body leaves in the accumulator and in the output buffer, as values.

  Every load and every store of the body is of a whole buffer at offsets zero. A buffer read back after a list of
  stores whose newest covers all of it holds that store's payload; a whole load of a buffer held at X reads X; and a
  whole load of a buffer after one covering store reads that store's payload. So the first block of a half leaves
  the block's contribution added to the zero block, a middle or last block leaves it added to what the point before
  left, and the last block's copy leaves in the output buffer the recast of what it has just left in the accumulator.
-/
import proofs.«180039_j69604239999586_2_alg».proof.Proof.KernelIdeal.R0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- All offsets of a whole rank-2 load or store are zero. -/
theorem hz2 : (![0, 0] : Fin 2 → Nat) = fun _ => 0 := funext fun a => by fin_cases a <;> rfl
/-- All offsets of a whole rank-3 load or store are zero. -/
theorem hz3 : (![0, 0, 0] : Fin 3 → Nat) = fun _ => 0 := funext fun a => by fin_cases a <;> rfl

/-- A middle block: the one store covers the accumulator; its payload's loads read the whole buffers, the accumulator
    at what the point before left. -/
theorem sout0_B_0_eq (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : ¬cond0_1 i) (x0 : Vec F S400x5000 .f32) (x1 : Vec F S400x128 .f32) (x2 : Vec F S128x128 .f32) (xs0 : Vec F S5000x256 .f32) :
    sout0_B_0 c i arg2 harg2 arg3 harg3 arg4 harg4 arg5 harg5 arg6 harg6 hc0 hc1 x0 x1 x2 xs0 = k0_pay2 x1 x2 x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero (S := S5000x256) hz2]
  simp only [View.readAt_eq_ld, harg2.read_unread, harg3.read_unread, harg4.read_unread, harg6.read_unread,
    View.ld_unit_zero (S := S400x5000) hz2, View.ld_unit_zero (S := S400x128) hz2, View.ld_unit_zero (S := S128x128) hz2,
    View.ld_unit_zero (S := S5000x256) hz2]

/-- The first block of a half: the newest store covers the accumulator; its payload loads the accumulator after the
    zero block was stored over all of it, so it reads the zero block. -/
theorem sout0_A_0_eq (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : cond0_0 i) (hc1 : ¬cond0_1 i) (x0 : Vec F S400x5000 .f32) (x1 : Vec F S400x128 .f32) (x2 : Vec F S128x128 .f32) :
    sout0_A_0 c i arg2 harg2 arg3 harg3 arg4 harg4 arg5 harg5 arg6 harg6 hc0 hc1 x0 x1 x2 = k0_pay2 x1 x2 x0 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S5000x256) hz2, View.readCov_unit_zero (S := S5000x256) _ hz2]
  simp only [View.readAt_eq_ld, harg2.read_unread, harg3.read_unread, harg4.read_unread,
    View.ld_unit_zero (S := S400x5000) hz2, View.ld_unit_zero (S := S400x128) hz2, View.ld_unit_zero (S := S128x128) hz2]

/-- The last block of a half leaves in the accumulator what a middle block does. -/
theorem sout0_C_0_eq (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : cond0_1 i) (x0 : Vec F S400x5000 .f32) (x1 : Vec F S400x128 .f32) (x2 : Vec F S128x128 .f32) (xs0 : Vec F S5000x256 .f32) :
    sout0_C_0 c i arg2 harg2 arg3 harg3 arg4 harg4 arg5 harg5 arg6 harg6 hc0 hc1 x0 x1 x2 xs0 = k0_pay2 x1 x2 x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S5000x256) hz2]
  simp only [View.readAt_eq_ld, harg2.read_unread, harg3.read_unread, harg4.read_unread, harg6.read_unread,
    View.ld_unit_zero (S := S400x5000) hz2, View.ld_unit_zero (S := S400x128) hz2, View.ld_unit_zero (S := S128x128) hz2,
    View.ld_unit_zero (S := S5000x256) hz2]

/-- The last block of a half copies the accumulator out: the copy's payload loads the accumulator after the block's
    contribution was stored over all of it. -/
theorem out0_C_3_eq (c : Dev nD) (i : grid0.Coords) (arg2 : Memref sig .tc .vmem S400x5000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x5000x256 .f32) (harg5 : arg5.IsWhole) (arg6 : Memref sig .tc .vmem S5000x256 .f32) (harg6 : arg6.IsWhole) (hc0 : ¬cond0_0 i) (hc1 : cond0_1 i) (x0 : Vec F S400x5000 .f32) (x1 : Vec F S400x128 .f32) (x2 : Vec F S128x128 .f32) (xs0 : Vec F S5000x256 .f32) :
    out0_C_3 c i arg2 harg2 arg3 harg3 arg4 harg4 arg5 harg5 arg6 harg6 hc0 hc1 x0 x1 x2 xs0 = k0_pay3 (k0_pay2 x1 x2 x0 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x5000x256) hz3, View.readCov_unit_zero (S := S5000x256) _ hz2]
  simp only [View.readAt_eq_ld, harg2.read_unread, harg3.read_unread, harg4.read_unread, harg6.read_unread,
    View.ld_unit_zero (S := S400x5000) hz2, View.ld_unit_zero (S := S400x128) hz2, View.ld_unit_zero (S := S128x128) hz2,
    View.ld_unit_zero (S := S5000x256) hz2]

end Cert.KernelIdeal.Hand

end
-- ==== Proof.KernelIdeal.R0Acc.lean ====
/-
  The first region's accumulator after a point as the step's payload: over the zero splat at the first block of a
  half, over what the point before left at any later block; and what the last block of a half copies out.
-/
import proofs.«180039_j69604239999586_2_alg».proof.Proof.KernelIdeal.R0Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem pA_snd (c : Dev nD) (t : Fin cfg0.N) (h0 : t.val % 25 = 0) (h1 : ¬t.val % 25 = 24) :
    (pA V c t h0 h1).2 = k0_pay2 (iblk0 V c 1 t) (iblk0 V c 2 t) (iblk0 V c 0 t) (k0_pay1 (F := F)) := by
  unfold pA; dsimp only; exact sout0_A_0_eq (F := F) ..

theorem pB_snd (c : Dev nD) (t : Fin cfg0.N) (h0 : ¬t.val % 25 = 0) (h1 : ¬t.val % 25 = 24) (xs0 : Vec F S5000x256 .f32) :
    (pB V c t h0 h1 xs0).2 = k0_pay2 (iblk0 V c 1 t) (iblk0 V c 2 t) (iblk0 V c 0 t) xs0 := by
  unfold pB; dsimp only; exact sout0_B_0_eq (F := F) ..

theorem pC_snd (c : Dev nD) (t : Fin cfg0.N) (h0 : ¬t.val % 25 = 0) (h1 : t.val % 25 = 24) (xs0 : Vec F S5000x256 .f32) :
    (pC V c t h0 h1 xs0).2 = k0_pay2 (iblk0 V c 1 t) (iblk0 V c 2 t) (iblk0 V c 0 t) xs0 := by
  unfold pC; dsimp only; exact sout0_C_0_eq (F := F) ..

theorem pC_fst (c : Dev nD) (t : Fin cfg0.N) (h0 : ¬t.val % 25 = 0) (h1 : t.val % 25 = 24) (xs0 : Vec F S5000x256 .f32) :
    (pC V c t h0 h1 xs0).1 = k0_pay3 (k0_pay2 (iblk0 V c 1 t) (iblk0 V c 2 t) (iblk0 V c 0 t) xs0) := by
  unfold pC; dsimp only; exact out0_C_3_eq (F := F) ..

/-- The accumulator after the first block of a half. -/
theorem acc_first (c : Dev nD) (t : Fin cfg0.N) (h0 : t.val % 25 = 0) :
    (outsAt0 V c t.val t.isLt).2 = k0_pay2 (iblk0 V c 1 t) (iblk0 V c 2 t) (iblk0 V c 0 t) (k0_pay1 (F := F)) :=
  have h1 : ¬t.val % 25 = 24 := by omega
  (congrArg Prod.snd (outsAt0_A V c t h0 h1)).trans (pA_snd V c t h0 h1)

/-- The accumulator after any later block: the step over what the point before left. -/
theorem acc_later (c : Dev nD) (t : Fin cfg0.N) (h0 : ¬t.val % 25 = 0) :
    (outsAt0 V c t.val t.isLt).2 = k0_pay2 (iblk0 V c 1 t) (iblk0 V c 2 t) (iblk0 V c 0 t)
      (outsAt0 V c (t.val - 1) (Nat.lt_of_le_of_lt (Nat.sub_le _ _) t.isLt)).2 := by
  by_cases h1 : t.val % 25 = 24
  · exact (congrArg Prod.snd (outsAt0_C V c t h0 h1)).trans (pC_snd V c t h0 h1 _)
  · exact (congrArg Prod.snd (outsAt0_B V c t h0 h1)).trans (pB_snd V c t h0 h1 _)

/-- What the last block of a half copies out: its accumulator under a leading unit axis. -/
theorem out_last (c : Dev nD) (t : Fin cfg0.N) (h1 : t.val % 25 = 24) :
    (outsAt0 V c t.val t.isLt).1 = k0_pay3 (outsAt0 V c t.val t.isLt).2 := by
  have h0 : ¬t.val % 25 = 0 := by omega
  exact ((congrArg Prod.fst (outsAt0_C V c t h0 h1)).trans (pC_fst V c t h0 h1 _)).trans
    (congrArg k0_pay3 ((congrArg Prod.snd (outsAt0_C V c t h0 h1)).trans (pC_snd V c t h0 h1 _)).symm)

end

end Cert.KernelIdeal.Hand

end
-- ==== Proof.KernelIdeal.R0Array.lean ====
/-
  The first kernel region's blocks as parts of their arrays, and its output array after the region.

  The grid is 2 × 25; point `t` has coordinates (t / 25, t % 25). The incidence matrix and the node features are walked
  in bands of 400 rows, band `t` at point `t`; the weights are read whole at every point. The output has two planes of
  5000 × 256, one per half of the nodes: plane `h` is written back once, by the last point of its half (position
  `h·25 + 24`), so after the region it holds what that point left in the output buffer.
-/
import proofs.«180039_j69604239999586_2_alg».proof.Proof.KernelIdeal.R0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx (ix2 ix3)

variable {F : FTy → Type} [FloatOps F]
variable (V : (c : Dev nD) → (b : Ref sig .tc) → Buf (Elt F) ((c : Thread nD τ).loc b))

/-- The four index maps over the grid: the incidence matrix's and the features' row band is the point's number, the
    output's plane is the point's half, every other block index is zero. -/
theorem index0_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val / 25 ∧ win0_3.index t (1 : Fin 3) = 0 ∧ win0_3.index t (2 : Fin 3) = 0 :=
  (by decide +kernel : ∀ t : Fin grid0.N, _)

/-! ## The input blocks as parts of their arrays -/

/-- The incidence matrix's block at point `t` is its rows `t·400 … t·400 + 399`. -/
theorem iblk0_0_apply (c : Dev nD) (t : Fin cfg0.N) (r : Fin 400) (e : Fin 5000) :
    (iblk0 V c 0 t : S400x5000.Idx → Elt F .f32) (ix2 r e)
      = (V c main_arg1 : S20000x5000.Idx → Elt F .f32)
          (ix2 (⟨t.val * 400 + r.val, by have := t.isLt; have h : cfg0.N = 50 := N_0; have := r.isLt; omega⟩ : Fin 20000) e) := by
  obtain ⟨e0, e1, -⟩ := index0_facts t
  unfold iblk0
  rw [View.read_apply]
  show V c main_arg1 _ = V c main_arg1 _
  congr 1
  funext a
  apply Fin.ext
  match a with
  | ⟨0, _⟩ => show win0_0.index t 0 * 400 + 1 * r.val = t.val * 400 + r.val; rw [e0]; omega
  | ⟨1, _⟩ => show win0_0.index t 1 * 5000 + 1 * e.val = e.val; rw [e1]; omega

/-- The node features' block at point `t` is their rows `t·400 … t·400 + 399`. -/
theorem iblk0_1_apply (c : Dev nD) (t : Fin cfg0.N) (r : Fin 400) (k : Fin 128) :
    (iblk0 V c 1 t : S400x128.Idx → Elt F .f32) (ix2 r k)
      = (V c main_arg0 : S20000x128.Idx → Elt F .f32)
          (ix2 (⟨t.val * 400 + r.val, by have := t.isLt; have h : cfg0.N = 50 := N_0; have := r.isLt; omega⟩ : Fin 20000) k) := by
  obtain ⟨-, -, e0, e1, -⟩ := index0_facts t
  unfold iblk0
  rw [View.read_apply]
  show V c main_arg0 _ = V c main_arg0 _
  congr 1
  funext a
  apply Fin.ext
  match a with
  | ⟨0, _⟩ => show win0_1.index t 0 * 400 + 1 * r.val = t.val * 400 + r.val; rw [e0]; omega
  | ⟨1, _⟩ => show win0_1.index t 1 * 128 + 1 * k.val = k.val; rw [e1]; omega

/-- The weights' block at every point is the whole array. -/
theorem iblk0_2_eq (c : Dev nD) (t : Fin cfg0.N) :
    (iblk0 V c 2 t : S128x128.Idx → Elt F .f32) = (V c main_arg2 : S128x128.Idx → Elt F .f32) := by
  obtain ⟨-, -, -, -, e0, e1, -⟩ := index0_facts t
  funext y
  unfold iblk0
  rw [View.read_apply]
  show V c main_arg2 _ = V c main_arg2 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-! ## The output's planes: written back by the last point of each half, each read back as written -/

/-- The two points that write back write different planes. -/
theorem disjoint0_3 : ∀ t t' : Fin cfg0.N, (cfg0.win 3).flush t = true → (cfg0.win 3).flush t' = true → t ≠ t' →
    Disjoint ((cfg0.win 3).blk t).view.set ((cfg0.win 3).blk t').view.set :=
  fun t t' hf hf' hne => (cfg0.win 3).disjoint_blk fun h => hne (Fin.ext (by
    have h0 := congrFun h (0 : Fin 3)
    rw [(index0_facts t).2.2.2.2.2.2.1, (index0_facts t').2.2.2.2.2.2.1] at h0
    have m := (flush0_3 t).mp hf
    have m' := (flush0_3 t').mp hf'
    omega))

/-- An element of the plane a writing-back point `t` owns, after the last point, is what `t` left in the output
    buffer. -/
theorem arr0_3_emb (c : Dev nD) (t : Fin cfg0.N) (ht : t.val % 25 = 24) (y : S1x5000x256.Idx) :
    (dat0 V c).arrAt 3 cfg0.N (((cfg0.win 3).blk t).view.emb y) = (outsAt0 V c t.val t.isLt).1 y := by
  refine ((dat0 V c).arrAt_emb_eq_flushed 3 disjoint0_3 t ((flush0_3 t).mpr ht) y).trans ?_
  show (cfg0.win 3).cut (grid0.coords t) ((dat0 V c).after 3 t) y = _
  rw [after0_3]
  rfl

/-- Where an element of point `t`'s plane sits in the array. -/
theorem emb0_3 (t : Fin cfg0.N) (h : Fin 2) (hh : t.val / 25 = h.val) (e : Fin 5000) (j : Fin 256) :
    ((cfg0.win 3).blk t).view.emb (ix3 (0 : Fin 1) e j) = (ix3 h e j : S2x5000x256.Idx) := by
  obtain ⟨-, -, -, -, -, -, e0, e1, e2⟩ := index0_facts t
  funext a
  apply Fin.ext
  match a with
  | ⟨0, _⟩ => show win0_3.index t 0 * 1 + 1 * (0 : Fin 1).val = h.val; rw [e0, hh]; show h.val * 1 + 1 * 0 = h.val; omega
  | ⟨1, _⟩ => show win0_3.index t 1 * 5000 + 1 * e.val = e.val; rw [e1]; omega
  | ⟨2, _⟩ => show win0_3.index t 2 * 256 + 1 * j.val = j.val; rw [e2]; omega

/-- PLANE `h` OF THE OUTPUT after the region is what the last point of half `h`, position `h·25 + 24`, left in the
    output buffer. -/
theorem arr0_3 (c : Dev nD) (h : Fin 2) (e : Fin 5000) (j : Fin 256) :
    ((dat0 (F := F) V c).arrAt 3 cfg0.N : S2x5000x256.Idx → Elt F .f32) (ix3 h e j)
      = (outsAt0 V c (h.val * 25 + 24) (by have := h.isLt; have hN : cfg0.N = 50 := N_0; omega)).1 (ix3 (0 : Fin 1) e j) := by
  have hN : cfg0.N = 50 := N_0
  let t' : Fin cfg0.N := ⟨h.val * 25 + 24, by have := h.isLt; omega⟩
  rw [← emb0_3 t' h (by show (h.val * 25 + 24) / 25 = h.val; omega) e j]
  exact arr0_3_emb V c t' (by show (h.val * 25 + 24) % 25 = 24; omega) (ix3 (0 : Fin 1) e j)

end Cert.KernelIdeal.Hand

end
-- ==== Proof.KernelIdeal.R1Array.lean ====
/- Region 1's output array after the region, read at an entry. The output window's blocks are the fifty 400-row bands of
   the 20000x128 result; grid point `t` owns band `t` and no other point touches it, so row `t·400 + r` of the array
   after the last point is row `r` of what point `t` stored: the body's payload over rows `t·400 …` of the first operand,
   the whole second operand and the whole bias row. -/
import proofs.«180039_j69604239999586_2_alg».proof.Proof.KernelIdeal.R1
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx (ix2 idx2_lt0 idx2_lt1)

variable {F : FTy → Type} [FloatOps F]
variable (V : (c : Dev nD) → (b : Ref sig .tc) → Buf (Elt F) ((c : Thread nD τ).loc b))

/-- The zero offset of a whole-buffer access. -/
theorem zero_off1 : (![0, 0] : Fin 2 → Nat) = fun _ => 0 := funext fun a => by fin_cases a <;> rfl

/-- The four index maps over the grid: the first operand's and the result's row band is the point's number, every
    other block index is zero. -/
theorem index1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's one store is of the whole buffer and its loads are of whole buffers: the output's buffer after the body is
    the payload of the three input buffers. -/
theorem out1_3_eq (x0 : Vec F S400x5000 .f32) (x1 : Vec F S5000x128 .f32) (x2 : Vec F S1x128 .f32) :
    out1_3 x0 x1 x2 = k1_pay1 x0 x1 x2 := by
  unfold out1_3
  rw [View.canon_unit_zero zero_off1]
  simp only [View.ld_unit_zero (S := S400x5000) zero_off1, View.ld_unit_zero (S := S5000x128) zero_off1,
    View.ld_unit_zero (S := S1x128) zero_off1]

/-! ## The input blocks as parts of their arrays -/

/-- The first operand's block at point `t` is its rows `t·400 … t·400 + 399`. -/
theorem iblk1_0_apply (c : Dev nD) (t : Fin cfg1.N) (y : S400x5000.Idx) (k : S20000x5000.Idx)
    (hk0 : (k 0).val = t.val * 400 + (y 0).val) (hk1 : (k 1).val = (y 1).val) :
    (iblk1 V c 0 t : Vec F S400x5000 .f32) y = (V c main_arg1 : S20000x5000.Idx → Elt F .f32) k := by
  obtain ⟨e0, e1, -⟩ := index1_facts t
  unfold iblk1
  rw [View.read_apply]
  show V c main_arg1 _ = V c main_arg1 _
  congr 1
  funext a
  apply Fin.ext
  match a with
  | ⟨0, _⟩ => show win1_0.index t 0 * 400 + 1 * (y 0).val = (k 0).val; rw [e0, hk0]; omega
  | ⟨1, _⟩ => show win1_0.index t 1 * 5000 + 1 * (y 1).val = (k 1).val; rw [e1, hk1]; omega

/-- The second operand's block at every point is the whole array. -/
theorem iblk1_1_eq (c : Dev nD) (t : Fin cfg1.N) :
    (iblk1 V c 1 t : Vec F S5000x128 .f32) = (V c main_v10 : S5000x128.Idx → Elt F .f32) := by
  obtain ⟨-, -, e0, e1, -⟩ := index1_facts t
  funext y
  unfold iblk1
  rw [View.read_apply]
  show V c main_v10 _ = V c main_v10 _
  congr 1
  funext a
  apply Fin.ext
  match a with
  | ⟨0, _⟩ => show win1_1.index t 0 * 5000 + 1 * (y 0).val = (y 0).val; rw [e0]; omega
  | ⟨1, _⟩ => show win1_1.index t 1 * 128 + 1 * (y 1).val = (y 1).val; rw [e1]; omega

/-- The bias row's block at every point is the whole row. -/
theorem iblk1_2_eq (c : Dev nD) (t : Fin cfg1.N) :
    (iblk1 V c 2 t : Vec F S1x128 .f32) = (V c main_v11 : S1x128.Idx → Elt F .f32) := by
  obtain ⟨-, -, -, -, e0, e1, -⟩ := index1_facts t
  funext y
  unfold iblk1
  rw [View.read_apply]
  show V c main_v11 _ = V c main_v11 _
  congr 1
  funext a
  apply Fin.ext
  match a with
  | ⟨0, _⟩ => show win1_2.index t 0 * 1 + 1 * (y 0).val = (y 0).val; rw [e0]; omega
  | ⟨1, _⟩ => show win1_2.index t 1 * 128 + 1 * (y 1).val = (y 1).val; rw [e1]; omega

/-! ## The output's blocks: pairwise disjoint, each read back as stored -/

/-- Distinct points write distinct bands. -/
theorem index1_3_inj : ∀ t t' : Fin cfg1.N, win1_3.index t = win1_3.index t' → t = t' := fun t t' h => by
  have h0 := congrFun h (0 : Fin 2)
  rw [(index1_facts t).2.2.2.2.2.2.1, (index1_facts t').2.2.2.2.2.2.1] at h0
  exact Fin.ext h0

theorem disjoint1_3 : ∀ t t' : Fin cfg1.N, (cfg1.win 3).flush t = true → (cfg1.win 3).flush t' = true → t ≠ t' →
    Disjoint ((cfg1.win 3).blk t).view.set ((cfg1.win 3).blk t').view.set :=
  fun t t' _ _ hne => (cfg1.win 3).disjoint_blk fun h => hne (index1_3_inj t t' h)

/-- An element of point `t`'s band, after the last point, is the payload's element. -/
theorem arr1_3_emb (c : Dev nD) (t : Fin cfg1.N) (y : S400x128.Idx) :
    (dat1 V c).arrAt 3 cfg1.N (((cfg1.win 3).blk t).view.emb y)
      = k1_pay1 (iblk1 V c 0 t) (iblk1 V c 1 t) (iblk1 V c 2 t) y := by
  refine ((dat1 V c).arrAt_emb_eq_flushed 3 (disjoint1_3) t (flush1_3 t) y).trans ?_
  show (cfg1.win 3).cut (grid1.coords t) ((dat1 V c).after 3 t) y = _
  rw [after1_3]
  exact congrFun (out1_3_eq (iblk1 V c 0 t) (iblk1 V c 1 t) (iblk1 V c 2 t)) y

/-- Where an element of point `t`'s band sits in the array. -/
theorem emb1_3 (t : Fin cfg1.N) (r : Fin 400) (j : Fin 128) (h : t.val * 400 + r.val < 20000) :
    ((cfg1.win 3).blk t).view.emb (ix2 r j) = (ix2 (⟨t.val * 400 + r.val, h⟩ : Fin 20000) j : S20000x128.Idx) := by
  obtain ⟨-, -, -, -, -, -, e0, e1⟩ := index1_facts t
  funext a
  apply Fin.ext
  match a with
  | ⟨0, _⟩ => show win1_3.index t 0 * 400 + 1 * r.val = t.val * 400 + r.val; rw [e0]; omega
  | ⟨1, _⟩ => show win1_3.index t 1 * 128 + 1 * j.val = j.val; rw [e1]; omega

/-- ROW `t·400 + r` OF THE RESULT after the region is row `r` of the payload of rows `t·400 …` of the first operand, the
    second operand and the bias row. -/
theorem arr1_3 (c : Dev nD) (t : Fin 50) (r : Fin 400) (j : Fin 128) :
    ((dat1 (F := F) V c).arrAt 3 cfg1.N : S20000x128.Idx → Elt F .f32) (ix2 (⟨t.val * 400 + r.val, by have := t.isLt; have := r.isLt; omega⟩ : Fin 20000) j)
      = k1_pay1 (fun y : S400x5000.Idx => (V c main_arg1 : S20000x5000.Idx → Elt F .f32) (ix2 (⟨t.val * 400 + (y 0).val, by have := t.isLt; have := idx2_lt0 y; omega⟩ : Fin 20000) (y 1))) (V c main_v10) (V c main_v11) (ix2 r j) := by
  have hN : cfg1.N = 50 := N_1
  let t' : Fin cfg1.N := ⟨t.val, by rw [hN]; exact t.isLt⟩
  have h0 : (iblk1 V c 0 t' : Vec F S400x5000 .f32) = fun y : S400x5000.Idx => (V c main_arg1 : S20000x5000.Idx → Elt F .f32) (ix2 (⟨t.val * 400 + (y 0).val, by have := t.isLt; have := idx2_lt0 y; omega⟩ : Fin 20000) (y 1)) :=
    funext fun y => iblk1_0_apply V c t' y _ rfl rfl
  rw [← emb1_3 t' r j (by have := t.isLt; have := r.isLt; omega), arr1_3_emb V c t' (ix2 r j), h0, iblk1_1_eq V c t', iblk1_2_eq V c t']

end Cert.KernelIdeal.Hand

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.Value.Pay0.lean ====
/-
  The first region's stored values, entry by entry, over the extended reals.

  The region keeps an accumulator of shape 5000 × 256.  It starts at zero; each step adds hᵀ · [x·w | 1], where x is a
  400 × 128 block of node features, w the 128 × 128 weights, h the 400 × 5000 block of the incidence matrix, and
  [x·w | 1] is the 400 × 256 matrix whose left half is the product x·w and whose right half is all ones.  So a left
  column j < 128 of row e gains ∑ r, h (r, e) · ∑ k, x (r, k) · w (k, j), and a right column gains ∑ r, h (r, e): the
  hyperedge's feature sum and its degree ride in one matrix.  The last store is the accumulator under a leading unit axis.
-/
import proofs.«180039_j69604239999586_2_alg».proof.Proof.Gen.KernelIdeal.Skeleton
import proofs.«180039_j69604239999586_2_alg».proof.Proof.LibPlainDot
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.Pay

open Cert.KernelIdeal Cert.KernelIdeal.Gen Idealize.ShloMosaic Idealize.ShloMosaic.ValueIdx

/-- The accumulator's first value: zero everywhere. -/
theorem pay1_apply (i : S5000x256.Idx) : k0_pay1 (F := Ideal) i = 0 := by
  unfold k0_pay1
  refine (congrFun (shapeCast_self _ _) i).trans ?_
  exact Ideal.ofBits_zero_f32

section Products
variable {φ₁ φ₂ : FTy}

/-- A product that contracts BOTH operands' first axes, into the zero splat, at entry (e, j): the sum over the shared
    row index q of l (q, e) · r (q, j) — the transpose of the left operand times the right one. -/
theorem matmul_firstAxes_ix2 (l : FVec Ideal S400x5000 φ₁) (r : FVec Ideal S400x256 φ₂) (e : Fin 5000) (j : Fin 256) :
    matmul dot_S400x5000_S400x256_S5000x256_0_0_1_1_n_n none l r (constant (F := Ideal) S5000x256 .f32 0x00000000#32) (ix2 e j)
      = ∑ q : Fin 400, l (ix2 q e) * r (ix2 q j) := by
  simp only [matmul]
  rw [Ideal.matmul_constant_zero_apply,
    ← Equiv.sum_comp (contrEquiv1 dot_S400x5000_S400x256_S5000x256_0_0_1_1_n_n 400 rfl rfl).symm]
  refine Finset.sum_congr rfl fun q _ => ?_
  have hq := contrEquiv1_symm_val dot_S400x5000_S400x256_S5000x256_0_0_1_1_n_n 400 rfl rfl q
  have el : dot_S400x5000_S400x256_S5000x256_0_0_1_1_n_n.lhsIdx (ix2 e j)
      ((contrEquiv1 dot_S400x5000_S400x256_S5000x256_0_0_1_1_n_n 400 rfl rfl).symm q) = ix2 q e :=
    funext fun a => Fin.ext (by
      match a with
      | ⟨0, _⟩ => exact (dot_S400x5000_S400x256_S5000x256_0_0_1_1_n_n.lhsIdx_val_of_single rfl _ _).trans hq
      | ⟨1, _⟩ => rfl)
  have er : dot_S400x5000_S400x256_S5000x256_0_0_1_1_n_n.rhsIdx (ix2 e j)
      ((contrEquiv1 dot_S400x5000_S400x256_S5000x256_0_0_1_1_n_n 400 rfl rfl).symm q) = ix2 q j :=
    funext fun a => Fin.ext (by
      match a with
      | ⟨0, _⟩ => exact (dot_S400x5000_S400x256_S5000x256_0_0_1_1_n_n.rhsIdx_val_of_single rfl _ _).trans hq
      | ⟨1, _⟩ => rfl)
  rw [el, er]

end Products

section Halves
variable {α : Type}

/-- Two 400 × 128 matrices side by side: a column below 128 reads the left one. -/
theorem concat_left (a b : S400x128.Idx → α) (r : Fin 400) (j : Fin 128) :
    concatenate S400x256 1 [⟨S400x128, a⟩, ⟨S400x128, b⟩] concatenates_S400x128_S400x128_S400x256_d1
      (ix2 r (⟨j.val, by omega⟩ : Fin 256)) = a (ix2 r j) :=
  concatenate_pair_apply_left (t := S400x256) 1 a b _ _ rfl (ix2 r j) (fun c => by
    match c with
    | ⟨0, _⟩ => rfl
    | ⟨1, _⟩ => rfl)

/-- … and a column from 128 on reads the right one, 128 columns back. -/
theorem concat_right (a b : S400x128.Idx → α) (r : Fin 400) (j : Fin 128) :
    concatenate S400x256 1 [⟨S400x128, a⟩, ⟨S400x128, b⟩] concatenates_S400x128_S400x128_S400x256_d1
      (ix2 r (⟨128 + j.val, by omega⟩ : Fin 256)) = b (ix2 r j) :=
  concatenate_pair_apply_right (t := S400x256) 1 a b _ _ rfl rfl (ix2 r j) (fun c hc => by
    match c, hc with
    | ⟨0, _⟩, _ => rfl
    | ⟨1, _⟩, hc => exact absurd rfl hc) (by show j.val + 128 = 128 + j.val; omega)

end Halves

/-- A step's new accumulator at a left column: the old entry plus the hyperedge's gathered projected features. -/
theorem pay2_left (v3 : Vec Ideal S400x128 .f32) (v5 : Vec Ideal S128x128 .f32) (v11 : Vec Ideal S400x5000 .f32)
    (v13 : Vec Ideal S5000x256 .f32) (e : Fin 5000) (j : Fin 128) :
    k0_pay2 v3 v5 v11 v13 (ix2 e (⟨j.val, by omega⟩ : Fin 256))
      = v13 (ix2 e (⟨j.val, by omega⟩ : Fin 256))
        + ∑ r : Fin 400, v11 (ix2 r e) * ∑ k : Fin 128, v3 (ix2 r k) * v5 (ix2 k j) := by
  unfold k0_pay2
  refine (congrFun (shapeCast_self _ _) _).trans ?_
  refine congrArg (v13 (ix2 e (⟨j.val, by omega⟩ : Fin 256)) + ·) ?_
  refine (matmul_firstAxes_ix2 _ _ e _).trans ?_
  refine Finset.sum_congr rfl fun r _ => ?_
  refine congrArg (v11 (ix2 r e) * ·) ?_
  refine (concat_left _ _ r j).trans ?_
  exact Cert.PlainDot.matmul_zero_ix2 _ rfl none _ _ r j

/-- A step's new accumulator at a right column: the old entry plus the hyperedge's degree over the block. -/
theorem pay2_right (v3 : Vec Ideal S400x128 .f32) (v5 : Vec Ideal S128x128 .f32) (v11 : Vec Ideal S400x5000 .f32)
    (v13 : Vec Ideal S5000x256 .f32) (e : Fin 5000) (j : Fin 128) :
    k0_pay2 v3 v5 v11 v13 (ix2 e (⟨128 + j.val, by omega⟩ : Fin 256))
      = v13 (ix2 e (⟨128 + j.val, by omega⟩ : Fin 256)) + ∑ r : Fin 400, v11 (ix2 r e) := by
  unfold k0_pay2
  refine (congrFun (shapeCast_self _ _) _).trans ?_
  refine congrArg (v13 (ix2 e (⟨128 + j.val, by omega⟩ : Fin 256)) + ·) ?_
  refine (matmul_firstAxes_ix2 _ _ e _).trans ?_
  refine Finset.sum_congr rfl fun r _ => ?_
  refine (congrArg (v11 (ix2 r e) * ·) ((concat_right _ _ r j).trans Ideal.ofBits_one_f32)).trans ?_
  exact mul_one _

/-- The stored result: the accumulator under a leading unit axis. -/
theorem pay3_apply (v22 : Vec Ideal S5000x256 .f32) (e : Fin 5000) (j : Fin 256) :
    k0_pay3 v22 (ix3 (0 : Fin 1) e j) = v22 (ix2 e j) := by
  unfold k0_pay3
  exact shapeCast_ab_1ab_apply v22 _ 0 e j

end Cert.KernelIdeal.Pay

end
-- ==== Proof.Value.Spec.lean ====
/-
  Hypergraph convolution over the extended reals, entry by entry.

  For node features `X` (20000 × 128), an incidence matrix `H` (20000 nodes × 5000 hyperedges), weights `W`
  (128 × 128) and a bias `b` (128):
    xw n j        = ∑ k, X n k · W k j                         the projected features
    edgeSum e j   = ∑ n, H n e · xw n j                        features gathered on a hyperedge
    edgeDeg e     = ∑ n, H n e                                 a hyperedge's degree
    edgeFeat e j  = edgeSum e j / (edgeDeg e + ε)              the hyperedge's mean feature
    nodeDeg n     = ∑ e, H n e                                 a node's degree
    out n j       = max ((∑ e, H n e · edgeFeat e j) / (nodeDeg n + ε) + b j) 0
  with ε the binary32 number nearest 1e-12, kept as its word, and the quotient the extended reals' `Ideal.div`.
  Both programs of the certificate compute `out`; they differ in how the sums over the 20000 nodes are grouped.
-/
import Idealize.ShloMosaic.PureOps.Ideal
import Idealize.ShloMosaic.Lib.ValueIdx

noncomputable section

namespace Cert.HyperConv

open Idealize.ShloMosaic Idealize.ShloMosaic.ValueIdx

/-- The matrices as functions of an index of their literal shape. -/
abbrev Mat (a b : Nat) : Type := (⟨2, ![a, b]⟩ : Shape).Idx → EReal
abbrev Vct (a : Nat) : Type := (⟨1, ![a]⟩ : Shape).Idx → EReal

/-- The guard added to both degrees: the binary32 word of 1e-12, never evaluated. -/
def eps : EReal := Ideal.ofBits .f32 0x2B8CBCCC#32

variable (X : Mat 20000 128) (H : Mat 20000 5000) (W : Mat 128 128) (b : Vct 128)

def xw (n : Fin 20000) (j : Fin 128) : EReal := ∑ k : Fin 128, X (ix2 n k) * W (ix2 k j)
def edgeSum (e : Fin 5000) (j : Fin 128) : EReal := ∑ n : Fin 20000, H (ix2 n e) * xw X W n j
def edgeDeg (e : Fin 5000) : EReal := ∑ n : Fin 20000, H (ix2 n e)
def edgeFeat (e : Fin 5000) (j : Fin 128) : EReal := Ideal.div (edgeSum X H W e j) (edgeDeg H e + eps)
def nodeDeg (n : Fin 20000) : EReal := ∑ e : Fin 5000, H (ix2 n e)
def outAt (n : Fin 20000) (j : Fin 128) : EReal :=
  max (Ideal.div (∑ e : Fin 5000, H (ix2 n e) * edgeFeat X H W e j) (nodeDeg H n + eps) + b (ix1 j)) 0

/-- The result array: `outAt` at an index's two coordinates. -/
def out : Mat 20000 128 := fun i => outAt X H W b (i 0) (i 1)

theorem out_ix2 (n : Fin 20000) (j : Fin 128) : out X H W b (ix2 n j) = outAt X H W b n j := rfl

end Cert.HyperConv

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.Value.Pay1.lean ====
/-
  The second region's stored block, entry by entry, over the extended reals.

  For a block `h` of 400 rows of the incidence matrix (400 × 5000), the hyperedge features `m` (5000 × 128) and the
  bias row `b` (1 × 128), the stored block is, at row `r` and column `j`,
      max ((∑ e, h r e · m e j) / ((∑ e, h r e) + ε) + b 0 j) 0 :
  the plain matrix product of `h` and `m` (the narrowing of both operands is the identity on extended reals), divided by
  the row's sum of `h` guarded by ε — the row sums form a vector of 400 entries, set as a column, added to the splat
  of ε and carried along the 128 columns —, plus the bias row carried down the 400 rows, clamped below at zero.
-/
import proofs.«180039_j69604239999586_2_alg».proof.Proof.Gen.KernelIdeal.Skeleton
import proofs.«180039_j69604239999586_2_alg».proof.Proof.Value.Spec
import proofs.«180039_j69604239999586_2_alg».proof.Proof.LibPlainDot
import proofs.«180039_j69604239999586_2_alg».proof.Proof.LibKeepdims
import proofs.«180039_j69604239999586_2_alg».proof.Proof.LibRowBroadcast
import proofs.«180039_j69604239999586_2_alg».proof.Proof.LibRank3
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay1

open Cert.KernelIdeal Cert.KernelIdeal.Gen Idealize.ShloMosaic Idealize.ShloMosaic.ValueIdx

/-- The product of the block with the hyperedge features, at `(r, j)`: the sum over the 5000 hyperedges. Both
    narrowings are the identity on extended reals, the cast of `m` to its own shape is the identity, and the product
    into the zero splat is the plain sum of products. -/
theorem prod_ix2 (v0 : Vec Ideal S400x5000 .f32) (v2 : Vec Ideal S5000x128 .f32) (r : Fin 400) (j : Fin 128) :
    matmul dot_S400x5000_S5000x128_S400x128_1_0_0_1_n_n none
        (truncf .bf16 v0 bitsLt_bf16_f32 : FVec Ideal S400x5000 .bf16)
        (truncf .bf16 (shapeCast S5000x128 v2 shapeCasts_S5000x128_S5000x128) bitsLt_bf16_f32 : FVec Ideal S5000x128 .bf16)
        (constant (F := Ideal) S400x128 .f32 0x00000000#32) (ix2 r j)
      = ∑ e : Fin 5000, v0 (ix2 r e) * v2 (ix2 e j) :=
  (Cert.PlainDot.matmul_zero_ix2 dot_S400x5000_S5000x128_S400x128_1_0_0_1_n_n rfl none
      (truncf .bf16 v0 bitsLt_bf16_f32 : FVec Ideal S400x5000 .bf16)
      (truncf .bf16 (shapeCast S5000x128 v2 shapeCasts_S5000x128_S5000x128) bitsLt_bf16_f32 : FVec Ideal S5000x128 .bf16) r j).trans
    (Finset.sum_congr rfl fun e _ =>
      congrArg (fun t : Vec Ideal S5000x128 .f32 => v0 (ix2 r e) * t (ix2 e j)) (shapeCast_self v2 shapeCasts_S5000x128_S5000x128))

/-- The guarded row sum carried along the columns, at `(r, j)`: the row's sum of the block plus ε. The sum over the
    last axis starts from the zero word, so it is the plain sum; set as a column and carried along the 128 columns it is
    read at row `r`. -/
theorem den_ix2 (v0 : Vec Ideal S400x5000 .f32) (r : Fin 400) (j : Fin 128) :
    broadcastTo S400x128
        (addf (shapeCast S400x1 (multiReduction (F := Ideal) .add [1] S400 v0 0x00000000#32 reduces_S400x5000_S400 (.inl rfl) rfl)
            shapeCasts_S400_S400x1 : FVec Ideal S400x1 .f32)
          (broadcast S400x1 (Scalar.ofBits (F := Ideal) .f32 0x2B8CBCCC#32)))
        broadcasts_S400x1_S400x128 (ix2 r j)
      = (∑ e : Fin 5000, v0 (ix2 r e)) + Cert.HyperConv.eps :=
  (Cert.LibKeepdims.broadcastTo_a1_ab_apply _ broadcasts_S400x1_S400x128 r j).trans
    (congrArg (· + Cert.HyperConv.eps)
      ((Cert.LibKeepdims.shapeCast_a_a1_apply
          (multiReduction (F := Ideal) .add [1] S400 v0 0x00000000#32 reduces_S400x5000_S400 (.inl rfl) rfl)
          shapeCasts_S400_S400x1 r (0 : Fin 1)).trans
        (Cert.LibRank3.sum_last2 v0 0x00000000#32 reduces_S400x5000_S400 (.inl rfl) rfl r)))

/-- The bias row carried down the rows, at `(r, j)`: the row's entry `j`. -/
theorem bias_ix2 (v12 : Vec Ideal S1x128 .f32) (r : Fin 400) (j : Fin 128) :
    broadcastTo S400x128 (shapeCast S1x128 v12 shapeCasts_S1x128_S1x128) broadcasts_S1x128_S400x128 (ix2 r j)
      = v12 (ix2 (0 : Fin 1) j) :=
  (Cert.LibRowBroadcast.broadcastTo_1b_ab_apply _ broadcasts_S1x128_S400x128 r j).trans
    (congrFun (shapeCast_self v12 shapeCasts_S1x128_S1x128) (ix2 (0 : Fin 1) j))

/-- The stored block at `(r, j)`. -/
theorem pay_r1 (v0 : Vec Ideal S400x5000 .f32) (v2 : Vec Ideal S5000x128 .f32) (v12 : Vec Ideal S1x128 .f32) (r : Fin 400) (j : Fin 128) :
    k1_pay1 v0 v2 v12 (ix2 r j)
      = max (Ideal.div (∑ e : Fin 5000, v0 (ix2 r e) * v2 (ix2 e j)) ((∑ e : Fin 5000, v0 (ix2 r e)) + Cert.HyperConv.eps)
          + v12 (ix2 (0 : Fin 1) j)) 0 := by
  unfold k1_pay1
  show max (Ideal.div (matmul dot_S400x5000_S5000x128_S400x128_1_0_0_1_n_n none
            (truncf .bf16 v0 bitsLt_bf16_f32 : FVec Ideal S400x5000 .bf16)
            (truncf .bf16 (shapeCast S5000x128 v2 shapeCasts_S5000x128_S5000x128) bitsLt_bf16_f32 : FVec Ideal S5000x128 .bf16)
            (constant (F := Ideal) S400x128 .f32 0x00000000#32) (ix2 r j))
          (broadcastTo S400x128
            (addf (shapeCast S400x1 (multiReduction (F := Ideal) .add [1] S400 v0 0x00000000#32 reduces_S400x5000_S400 (.inl rfl) rfl)
                shapeCasts_S400_S400x1 : FVec Ideal S400x1 .f32)
              (broadcast S400x1 (Scalar.ofBits (F := Ideal) .f32 0x2B8CBCCC#32)))
            broadcasts_S400x1_S400x128 (ix2 r j))
        + broadcastTo S400x128 (shapeCast S1x128 v12 shapeCasts_S1x128_S1x128) broadcasts_S1x128_S400x128 (ix2 r j))
      (Ideal.ofBits .f32 0x00000000#32) = _
  rw [prod_ix2 v0 v2 r j, den_ix2 v0 r j, bias_ix2 v12 r j, Ideal.ofBits_zero_f32]

end Cert.KernelIdeal.Pay1

end
-- ==== Proof.Value.Host.lean ====
/-
  The host lines between the two regions, entry by entry, over the extended reals.

  The first region leaves an array `o` of two planes (2 × 5000 × 256): each plane holds, for every hyperedge, a partial
  sum of gathered features in columns 0 … 127 and a partial degree in columns 128 … 255. The host adds the two planes,
  cuts the sum into its left and right halves, adds ε to the right half and divides: at `(e, j)`
      (o 0 e j + o 1 e j) / ((o 0 e (128 + j) + o 1 e (128 + j)) + ε),
  the hyperedge's mean feature. The bias vector (128) is set as a row (1 × 128) with the same entries, and no host
  line writes an argument of the program.
-/
import proofs.«180039_j69604239999586_2_alg».proof.Proof.Gen.KernelIdeal.Launch
import proofs.«180039_j69604239999586_2_alg».proof.Proof.Gen.KernelIdeal.Regions
import proofs.«180039_j69604239999586_2_alg».proof.Proof.Value.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostValue

open Cert.KernelIdeal Cert.KernelIdeal.Gen Idealize.ShloMosaic Idealize.ShloMosaic.ValueIdx Idealize.ShloMosaic.TcCoe
open Idealize.SL.Sem Idealize.ShloMosaic.StableHlo

/-! ## Cuts and a splat read at coordinates (any element type, any extents) -/

section Layout
variable {α : Type}

/-- Plane `p` of an `[m, a, b]` array cut out as `[1, a, b]` reads, at `(u, i, j)`, the array at `(p, i, j)`. -/
theorem slice_plane_apply {m a b : ℕ} (x : (⟨3, ![m, a, b]⟩ : Shape).Idx → α) (off : Fin 3 → ℕ)
    (h : (⟨3, ![m, a, b]⟩ : Shape).Slices off ⟨3, ![1, a, b]⟩) (p : Fin m) (h0 : off 0 = p.val) (h1 : off 1 = 0) (h2 : off 2 = 0)
    (u : Fin 1) (i : Fin a) (j : Fin b) :
    extractStridedSlice ⟨3, ![1, a, b]⟩ off x h (ix3 u i j) = x (ix3 p i j) :=
  extractStridedSlice_apply off x h _ _ fun ax => by
    match ax with
    | ⟨0, _⟩ => have := u.isLt; show p.val = off 0 + u.val; omega
    | ⟨1, _⟩ => show i.val = off 1 + i.val; omega
    | ⟨2, _⟩ => show j.val = off 2 + j.val; omega

/-- Columns from `off 1` on of an `[a, b]` array cut out as `[a, b']` read, at `(i, j)`, the array at `(i, off 1 + j)`. -/
theorem slice_cols_apply {a b b' : ℕ} (x : (⟨2, ![a, b]⟩ : Shape).Idx → α) (off : Fin 2 → ℕ)
    (h : (⟨2, ![a, b]⟩ : Shape).Slices off ⟨2, ![a, b']⟩) (h0 : off 0 = 0) (i : Fin a) (j : Fin b') (k : Fin b)
    (hk : k.val = off 1 + j.val) :
    extractStridedSlice ⟨2, ![a, b']⟩ off x h (ix2 i j) = x (ix2 i k) :=
  extractStridedSlice_apply off x h _ _ fun ax => by
    match ax with
    | ⟨0, _⟩ => show i.val = off 0 + i.val; omega
    | ⟨1, _⟩ => exact hk

/-- A scalar carried to every index of a shape reads the scalar. -/
theorem splat_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun ax => ax.elim0

end Layout

/-! ## The hyperedge features the host leaves for the second region -/

/-- The two planes added. -/
def planes (o : FVec Ideal S2x5000x256 .f32) : FVec Ideal S5000x256 .f32 :=
  addf
    (shapeCast S5000x256 (extractStridedSlice S1x5000x256 ![0, 0, 0] o slices_S2x5000x256_S1x5000x256_0_0_0) shapeCasts_S1x5000x256_S5000x256)
    (shapeCast S5000x256 (extractStridedSlice S1x5000x256 ![1, 0, 0] o slices_S2x5000x256_S1x5000x256_1_0_0) shapeCasts_S1x5000x256_S5000x256)

/-- The left half of the added planes divided by the right half plus the splat of ε. -/
def feat (o : FVec Ideal S2x5000x256 .f32) : FVec Ideal S5000x128 .f32 :=
  Host.divf (F := Ideal)
    (extractStridedSlice S5000x128 ![0, 0] (planes o) slices_S5000x256_S5000x128_0_0)
    (addf (extractStridedSlice S5000x128 ![0, 128] (planes o) slices_S5000x256_S5000x128_0_128)
      (broadcastInDim S5000x128 ![] bcast_S_S5000x128 (constant (F := Ideal) S_ .f32 0x2B8CBCCC#32)))

/-- What the host lines leave in the divided array, as one term of the first region's result. -/
theorem after_v10 (V : Valuation τ sig (Elt Ideal)) :
    (StableHlo.after (hostOps1 (F := Ideal)) V (Proc.devRef .tc main_v10) : S5000x128.Idx → EReal)
      = feat (V (Proc.devRef .tc main_v0)) := by
  after_results
  rfl

/-- The added planes at `(e, c)`. -/
theorem planes_ix2 (o : FVec Ideal S2x5000x256 .f32) (e : Fin 5000) (c : Fin 256) :
    planes o (ix2 e c) = o (ix3 (0 : Fin 2) e c) + o (ix3 (1 : Fin 2) e c) := by
  have e0 : shapeCast S5000x256 (extractStridedSlice S1x5000x256 ![0, 0, 0] o slices_S2x5000x256_S1x5000x256_0_0_0)
      shapeCasts_S1x5000x256_S5000x256 (ix2 e c) = o (ix3 (0 : Fin 2) e c) :=
    (shapeCast_1ab_ab_apply _ shapeCasts_S1x5000x256_S5000x256 e c).trans
      (slice_plane_apply o ![0, 0, 0] slices_S2x5000x256_S1x5000x256_0_0_0 (0 : Fin 2) rfl rfl rfl (0 : Fin 1) e c)
  have e1 : shapeCast S5000x256 (extractStridedSlice S1x5000x256 ![1, 0, 0] o slices_S2x5000x256_S1x5000x256_1_0_0)
      shapeCasts_S1x5000x256_S5000x256 (ix2 e c) = o (ix3 (1 : Fin 2) e c) :=
    (shapeCast_1ab_ab_apply _ shapeCasts_S1x5000x256_S5000x256 e c).trans
      (slice_plane_apply o ![1, 0, 0] slices_S2x5000x256_S1x5000x256_1_0_0 (1 : Fin 2) rfl rfl rfl (0 : Fin 1) e c)
  unfold planes
  show shapeCast S5000x256 (extractStridedSlice S1x5000x256 ![0, 0, 0] o slices_S2x5000x256_S1x5000x256_0_0_0)
        shapeCasts_S1x5000x256_S5000x256 (ix2 e c)
      + shapeCast S5000x256 (extractStridedSlice S1x5000x256 ![1, 0, 0] o slices_S2x5000x256_S1x5000x256_1_0_0)
        shapeCasts_S1x5000x256_S5000x256 (ix2 e c) = _
  rw [e0, e1]

/-- The hyperedge's mean feature at `(e, j)`. -/
theorem feat_ix2 (o : FVec Ideal S2x5000x256 .f32) (e : Fin 5000) (j : Fin 128) :
    feat o (ix2 e j)
      = Ideal.div (o (ix3 (0 : Fin 2) e ⟨j.val, by omega⟩) + o (ix3 (1 : Fin 2) e ⟨j.val, by omega⟩))
          ((o (ix3 (0 : Fin 2) e ⟨128 + j.val, by omega⟩) + o (ix3 (1 : Fin 2) e ⟨128 + j.val, by omega⟩)) + Cert.HyperConv.eps) := by
  have el : extractStridedSlice S5000x128 ![0, 0] (planes o) slices_S5000x256_S5000x128_0_0 (ix2 e j)
      = planes o (ix2 e (⟨j.val, by omega⟩ : Fin 256)) :=
    slice_cols_apply (planes o) ![0, 0] slices_S5000x256_S5000x128_0_0 rfl e j ⟨j.val, by omega⟩ (Nat.zero_add _).symm
  have er : extractStridedSlice S5000x128 ![0, 128] (planes o) slices_S5000x256_S5000x128_0_128 (ix2 e j)
      = planes o (ix2 e (⟨128 + j.val, by omega⟩ : Fin 256)) :=
    slice_cols_apply (planes o) ![0, 128] slices_S5000x256_S5000x128_0_128 rfl e j ⟨128 + j.val, by omega⟩ rfl
  have es : broadcastInDim S5000x128 ![] bcast_S_S5000x128 (constant (F := Ideal) S_ .f32 0x2B8CBCCC#32) (ix2 e j)
      = Cert.HyperConv.eps :=
    splat_apply ![] bcast_S_S5000x128 (constant (F := Ideal) S_ .f32 0x2B8CBCCC#32) (ix2 e j)
  unfold feat
  show Ideal.div (extractStridedSlice S5000x128 ![0, 0] (planes o) slices_S5000x256_S5000x128_0_0 (ix2 e j))
      (extractStridedSlice S5000x128 ![0, 128] (planes o) slices_S5000x256_S5000x128_0_128 (ix2 e j)
        + broadcastInDim S5000x128 ![] bcast_S_S5000x128 (constant (F := Ideal) S_ .f32 0x2B8CBCCC#32) (ix2 e j)) = _
  rw [el, er, es, planes_ix2, planes_ix2]

/-- The first region's result, the two planes, as a function of its three coordinates to the extended reals. -/
abbrev planesOf (V : Valuation τ sig (Elt Ideal)) : S2x5000x256.Idx → EReal := V (Proc.devRef .tc main_v0)

/-- The divided array the second region reads, at `(e, j)`, from any function `o` equal to the first region's result. -/
theorem host_v10_of (V : Valuation τ sig (Elt Ideal)) (o : S2x5000x256.Idx → EReal) (ho : V (Proc.devRef .tc main_v0) = o)
    (e : Fin 5000) (j : Fin 128) :
    (StableHlo.after (hostOps1 (F := Ideal)) V (Proc.devRef .tc main_v10) : S5000x128.Idx → EReal) (ix2 e j)
      = Ideal.div (o (ix3 (0 : Fin 2) e ⟨j.val, by omega⟩) + o (ix3 (1 : Fin 2) e ⟨j.val, by omega⟩))
          ((o (ix3 (0 : Fin 2) e ⟨128 + j.val, by omega⟩) + o (ix3 (1 : Fin 2) e ⟨128 + j.val, by omega⟩)) + Cert.HyperConv.eps) := by
  subst ho
  exact (congrFun (after_v10 V) (ix2 e j)).trans (feat_ix2 (V (Proc.devRef .tc main_v0)) e j)

/-- The divided array the second region reads, at `(e, j)`, from the first region's two planes. -/
theorem host_v10 (V : Valuation τ sig (Elt Ideal)) (e : Fin 5000) (j : Fin 128) :
    (StableHlo.after (hostOps1 (F := Ideal)) V (Proc.devRef .tc main_v10) : S5000x128.Idx → EReal) (ix2 e j)
      = Ideal.div (planesOf V (ix3 (0 : Fin 2) e ⟨j.val, by omega⟩) + planesOf V (ix3 (1 : Fin 2) e ⟨j.val, by omega⟩))
          ((planesOf V (ix3 (0 : Fin 2) e ⟨128 + j.val, by omega⟩) + planesOf V (ix3 (1 : Fin 2) e ⟨128 + j.val, by omega⟩))
            + Cert.HyperConv.eps) :=
  host_v10_of V (planesOf V) rfl e j

/-- The bias row the second region reads: the bias vector's entries. -/
theorem host_v11 (V : Valuation τ sig (Elt Ideal)) (j : Fin 128) :
    (StableHlo.after (hostOps1 (F := Ideal)) V (Proc.devRef .tc main_v11) : S1x128.Idx → EReal) (ix2 (0 : Fin 1) j)
      = (V (Proc.devRef .tc main_arg3) : S128.Idx → EReal) (ix1 j) := by
  have e : (StableHlo.after (hostOps1 (F := Ideal)) V (Proc.devRef .tc main_v11) : S1x128.Idx → EReal)
      = shapeCast S1x128 (V (Proc.devRef .tc main_arg3) : S128.Idx → EReal) shapeCasts_S128_S1x128 := by
    after_results
    rfl
  exact (congrFun e (ix2 (0 : Fin 1) j)).trans (shapeCast_a_1a_apply _ shapeCasts_S128_S1x128 (0 : Fin 1) j)

/-- No host line writes the incidence matrix. -/
theorem host_arg1 (V : Valuation τ sig (Elt Ideal)) :
    StableHlo.after (hostOps1 (F := Ideal)) V (Proc.devRef .tc main_arg1) = V (Proc.devRef .tc main_arg1) :=
  StableHlo.after_of_writes_sub (hostOps1 (F := Ideal)) V hostOps1_writes (by decide)

end Cert.KernelIdeal.HostValue

end
-- ==== Proof.LibSumRegroup.lean ====
/-
  Regrouping a finite sum over a range of naturals.

  A sum over `Fin (a * b)` is a double sum: every index below `a * b` is `p * b + q` for exactly one `p < a` and
  `q < b` (division with remainder by `b`), so summing block by block, `b` consecutive indices to a block, visits
  every index once. Twice over, a sum over `Fin (a * b * c)` is a triple sum over the indices `(p * b + q) * c + r`.
  This is how a column of `500000` rows is summed tile by tile: `2000` rows to a tile, `125` tiles to a core, `2` cores.

  A sum over `Fin (a + b + c + d)` is the sum of four sums, one over each consecutive part. This is how a product
  against a matrix whose columns are four blocks side by side is the sum of four partial products.

  All statements are for an arbitrary commutative additive monoid.
-/
import Mathlib.Algebra.BigOperators.Fin
import Mathlib.Data.Fintype.BigOperators
import Mathlib.Logic.Equiv.Fin.Basic

namespace Cert.SumRegroup

variable {M : Type*} [AddCommMonoid M]

/-! ## Products of ranges: block by block -/

/-- The index `p * b + q` of the `q`-th entry of the `p`-th block of length `b` lies below `a * b`. -/
theorem mul_add_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- A sum over `Fin (a * b)` taken block by block: `a` blocks of `b` consecutive indices. -/
theorem sum_fin_mul (a b : ℕ) (f : Fin (a * b) → M) :
    ∑ i, f i = ∑ p : Fin a, ∑ q : Fin b, f ⟨p.val * b + q.val, mul_add_lt p q⟩ := by
  rw [← (finProdFinEquiv (m := a) (n := b)).sum_comp f, Fintype.sum_prod_type]
  refine Finset.sum_congr rfl fun p _ => Finset.sum_congr rfl fun q _ => congrArg f (Fin.ext ?_)
  show q.val + b * p.val = p.val * b + q.val
  rw [Nat.add_comm, Nat.mul_comm]

/-- The index `(p * b + q) * c + r` lies below `a * b * c`. -/
theorem mul_add_mul_add_lt {a b c : ℕ} (p : Fin a) (q : Fin b) (r : Fin c) :
    (p.val * b + q.val) * c + r.val < a * b * c :=
  mul_add_lt (⟨p.val * b + q.val, mul_add_lt p q⟩ : Fin (a * b)) r

/-- A sum over `Fin (a * b * c)` taken in `a` groups of `b` blocks of `c` consecutive indices. -/
theorem sum_fin_mul_mul (a b c : ℕ) (f : Fin (a * b * c) → M) :
    ∑ i, f i = ∑ p : Fin a, ∑ q : Fin b, ∑ r : Fin c,
      f ⟨(p.val * b + q.val) * c + r.val, mul_add_mul_add_lt p q r⟩ := by
  rw [sum_fin_mul (a * b) c f,
    sum_fin_mul a b fun t : Fin (a * b) => ∑ r : Fin c, f ⟨t.val * c + r.val, mul_add_lt t r⟩]

/-- A column of `500000` rows summed tile by tile: two halves of `125` tiles of `2000` rows; row
    `(cc * 125 + j) * 2000 + r` is row `r` of tile `j` of half `cc`. -/
theorem sum_rows_by_tile (f : Fin 500000 → M) :
    ∑ e, f e = ∑ cc : Fin 2, ∑ j : Fin 125, ∑ r : Fin 2000,
      f ⟨(cc.val * 125 + j.val) * 2000 + r.val, mul_add_mul_add_lt (a := 2) cc j r⟩ :=
  sum_fin_mul_mul 2 125 2000 f

/-! ## Sums of ranges: part by part -/

/-- A sum over `Fin (a + b + c + d)` is the sum of the sums over its four consecutive parts. -/
theorem sum_fin_add4 (a b c d : ℕ) (g : Fin (a + b + c + d) → M) :
    ∑ i, g i
      = (∑ i : Fin a, g ⟨i.val, by omega⟩) + (∑ i : Fin b, g ⟨a + i.val, by omega⟩)
        + (∑ i : Fin c, g ⟨a + b + i.val, by omega⟩) + (∑ i : Fin d, g ⟨a + b + c + i.val, by omega⟩) := by
  rw [Fin.sum_univ_add, Fin.sum_univ_add, Fin.sum_univ_add]
  rfl

/-- A sum over `384` columns made of four blocks side by side, of widths `128`, `128`, `64`, `64`. -/
theorem sum_cols_by_part (g : Fin 384 → M) :
    ∑ i, g i
      = (∑ i : Fin 128, g ⟨i.val, by omega⟩) + (∑ i : Fin 128, g ⟨128 + i.val, by omega⟩)
        + (∑ i : Fin 64, g ⟨256 + i.val, by omega⟩) + (∑ i : Fin 64, g ⟨320 + i.val, by omega⟩) :=
  sum_fin_add4 128 128 64 64 g

end Cert.SumRegroup
-- ==== Proof.Value.Regroup.lean ====
/-
  The sum over the 20000 nodes, taken block by block.

  Every node number below 20000 is `t * 400 + r` for exactly one block `t < 50` and one row `r < 400` of that block;
  and every block number below 50 is `c * 25 + i` for exactly one half `c < 2` and one position `i < 25` in it.
  Summing block by block, or half by half and then block by block, therefore visits every node once: the regrouping
  of a sum over a product of ranges, in a commutative additive monoid (here the extended reals).
-/
import Mathlib.Data.EReal.Basic
import Idealize.ShloMosaic.PureOps.Ideal
import proofs.«180039_j69604239999586_2_alg».proof.Proof.LibSumRegroup

namespace Cert.HyperConv

open Cert.SumRegroup

/-- The 20000 nodes summed in 2 halves of 25 blocks of 400 rows: node `(c * 25 + i) * 400 + r` is row `r` of block `i`
    of half `c`. -/
theorem sum_nodes (f : Fin 20000 → EReal) :
    ∑ n : Fin 20000, f n = ∑ c : Fin 2, ∑ i : Fin 25, ∑ r : Fin 400,
      f ⟨(c.val * 25 + i.val) * 400 + r.val, by have := c.isLt; have := i.isLt; have := r.isLt; omega⟩ :=
  sum_fin_mul_mul 2 25 400 f

/-- The 20000 nodes summed in 50 blocks of 400 rows: node `t * 400 + r` is row `r` of block `t`. -/
theorem sum_nodes50 (f : Fin 20000 → EReal) :
    ∑ n : Fin 20000, f n = ∑ t : Fin 50, ∑ r : Fin 400,
      f ⟨t.val * 400 + r.val, by have := t.isLt; have := r.isLt; omega⟩ :=
  sum_fin_mul 50 400 f

end Cert.HyperConv
-- ==== Proof.Value.Accum.lean ====
/-
  The accumulation over a half, as a law about sequences of extended reals.

  An accumulator that is reset at the first of every 25 consecutive steps and increased by `g t` at step `t` holds,
  after step `t`, the sum of the increments of `t`'s run of 25 up to `t`. After the last step of each of two runs
  the two accumulators together hold the sum of all 50 increments; when each increment is itself the sum of a
  function over a block of 400 consecutive naturals, that is the function's sum over the first 20000 naturals.
  Only the commutativity and associativity of the extended reals' addition and `0 + x = x` are used.
-/
import proofs.«180039_j69604239999586_2_alg».proof.Proof.Value.Regroup

noncomputable section

namespace Cert.HyperConv

/-- The accumulator after step `t` (of the first `N` steps): the increments since the start of `t`'s run of 25. -/
theorem acc_closed (N : ℕ) (a g : ℕ → EReal)
    (hA : ∀ t, t < N → t % 25 = 0 → a t = 0 + g t)
    (hB : ∀ t, t < N → t % 25 ≠ 0 → a t = a (t - 1) + g t) :
    ∀ t, t < N → a t = ∑ i ∈ Finset.range (t % 25 + 1), g (t / 25 * 25 + i) := by
  intro t
  induction t with
  | zero =>
    intro h
    rw [hA 0 h rfl]
    simp
  | succ n ih =>
    intro h
    by_cases h0 : (n + 1) % 25 = 0
    · rw [hA _ h h0, h0]
      simp only [zero_add, Finset.sum_range_one, Nat.add_zero]
      congr 1; omega
    · rw [hB _ h h0, Nat.add_sub_cancel, ih (by omega)]
      have h1 : (n + 1) % 25 = n % 25 + 1 := by omega
      have h2 : (n + 1) / 25 = n / 25 := by omega
      rw [h1, h2, Finset.sum_range_succ (fun i => g (n / 25 * 25 + i)) (n % 25 + 1)]
      congr 2; omega

/-- The two halves together: the runs ending at steps 24 and 49 add up to all 50 increments. -/
theorem two_halves (g : ℕ → EReal) :
    (∑ i ∈ Finset.range (24 % 25 + 1), g (24 / 25 * 25 + i)) + (∑ i ∈ Finset.range (49 % 25 + 1), g (49 / 25 * 25 + i))
      = ∑ t : Fin 50, g t.val := by
  rw [show 24 % 25 + 1 = 25 from rfl, show 24 / 25 * 25 = 0 from rfl, show 49 / 25 * 25 = 25 from rfl]
  simp only [zero_add]
  rw [← Finset.sum_range (fun t => g t), show (50 : ℕ) = 25 + 25 from rfl, Finset.sum_range_add]

/-- Fifty blocks of 400 consecutive naturals are the first 20000: for a function given on the naturals below 20000. -/
theorem blocks_total (f : ℕ → EReal) :
    ∑ t : Fin 50, ∑ r : Fin 400, f (t.val * 400 + r.val) = ∑ n : Fin 20000, f n.val :=
  (sum_nodes50 (fun n => f n.val)).symm

end Cert.HyperConv

end
-- ==== Proof.Value.Bridge.lean ====
/-
  From the two halves' accumulators to a hyperedge's mean feature.

  For a hyperedge `e` and a feature `j`, row `n` of the nodes contributes `H n e · xw n j` to the left accumulator
  column `j` and `H n e` (that is `H n e · 1`) to the right column `128 + j`. Written as functions of a natural `n`
  (zero from 20000 on, where there is no row), a block of 400 rows contributes the sum of its rows' terms, a half's
  run of 25 blocks the sum of its blocks', and the two halves together every row's: the hyperedge's gathered feature
  and its degree. Their quotient, the degree guarded by ε, is the specification's `edgeFeat`.
-/
import proofs.«180039_j69604239999586_2_alg».proof.Proof.Value.Spec
import proofs.«180039_j69604239999586_2_alg».proof.Proof.Value.Accum

noncomputable section

namespace Cert.HyperConv

open Idealize.ShloMosaic Idealize.ShloMosaic.ValueIdx

variable (X : Mat 20000 128) (H : Mat 20000 5000) (W : Mat 128 128) (e : Fin 5000) (j : Fin 128)

/-- Row `n`'s term in the gathered feature. -/
def rowL (n : ℕ) : EReal := if h : n < 20000 then H (ix2 ⟨n, h⟩ e) * xw X W ⟨n, h⟩ j else 0
/-- Row `n`'s term in the degree. -/
def rowR (n : ℕ) : EReal := if h : n < 20000 then H (ix2 ⟨n, h⟩ e) else 0
/-- Block `t`'s contribution: its 400 rows' terms. -/
def blockL (t : ℕ) : EReal := ∑ r : Fin 400, rowL X H W e j (t * 400 + r.val)
def blockR (t : ℕ) : EReal := ∑ r : Fin 400, rowR H e (t * 400 + r.val)

theorem total_L : ∑ t : Fin 50, blockL X H W e j t.val = edgeSum X H W e j := by
  unfold blockL
  rw [blocks_total (rowL X H W e j)]
  unfold edgeSum rowL
  exact Finset.sum_congr rfl fun n _ => by rw [dif_pos n.isLt]

theorem total_R : ∑ t : Fin 50, blockR H e t.val = edgeDeg H e := by
  unfold blockR
  rw [blocks_total (rowR H e)]
  unfold edgeDeg rowR
  exact Finset.sum_congr rfl fun n _ => by rw [dif_pos n.isLt]

/-- The two halves' last accumulators, added and divided: the hyperedge's mean feature. -/
theorem edgeFeat_of_halves (aL aR : ℕ → EReal)
    (hL : ∀ t, t < 50 → aL t = ∑ i ∈ Finset.range (t % 25 + 1), blockL X H W e j (t / 25 * 25 + i))
    (hR : ∀ t, t < 50 → aR t = ∑ i ∈ Finset.range (t % 25 + 1), blockR H e (t / 25 * 25 + i)) :
    Ideal.div (aL 24 + aL 49) ((aR 24 + aR 49) + eps) = edgeFeat X H W e j := by
  rw [hL 24 (by norm_num), hL 49 (by norm_num), hR 24 (by norm_num), hR 49 (by norm_num),
    two_halves (blockL X H W e j), two_halves (blockR H e), total_L, total_R]
  rfl

end Cert.HyperConv

end
-- ==== Proof.Value.KernelValue.lean ====
/-
  What the idealized kernel computes, on the extended reals: its result array is the specification's `out` of the
  launch memory's four argument arrays.

  The first region's accumulator after point `t` holds, in its left column `j` and right column `128 + j` at row `e`,
  the sum of the contributions of `t`'s half's blocks up to `t` (a block's contribution to the left column is
  `∑ r, H (t·400 + r) e · xw (t·400 + r) j`, to the right column `∑ r, H (t·400 + r) e`, the ones column of the
  augmented product being `x · 1 = x`). The last point of each half copies its accumulator into that half's plane of
  the first region's result; the host lines add the two planes and divide the left columns by the right ones plus ε:
  the hyperedges' mean features. The second region's point `t` writes rows `t·400 …` of the result: the product of
  the incidence rows with the mean features over the node's degree plus ε, plus the bias, clamped at zero.
-/
import proofs.«180039_j69604239999586_2_alg».proof.Proof.KernelIdeal.Run
import proofs.«180039_j69604239999586_2_alg».proof.Proof.KernelIdeal.R0Acc
import proofs.«180039_j69604239999586_2_alg».proof.Proof.KernelIdeal.R0Array
import proofs.«180039_j69604239999586_2_alg».proof.Proof.KernelIdeal.R1Array
import proofs.«180039_j69604239999586_2_alg».proof.Proof.Value.Pay0
import proofs.«180039_j69604239999586_2_alg».proof.Proof.Value.Pay1
import proofs.«180039_j69604239999586_2_alg».proof.Proof.Value.Host
import proofs.«180039_j69604239999586_2_alg».proof.Proof.Value.Bridge

set_option maxRecDepth 16384

noncomputable section

namespace Cert.KernelIdeal.KValue

open Cert.KernelIdeal Cert.KernelIdeal.Hand
open Idealize.ShloMosaic Idealize.ShloMosaic.TcCoe Idealize.SL.Sem
open Idealize.ShloMosaic.Pipeline (Dat)
open Idealize.ShloMosaic.ValueIdx (ix1 ix2 ix3)
open Cert.HyperConv

variable (m : (ℓ : Loc nD τ sig) → Buf (Elt Ideal) ℓ) (ρ : Dev nD → PrngReg) (c : Dev nD)

/-- The launch memory's argument arrays as matrices over the extended reals. -/
abbrev Xm : Mat 20000 128 := m ((c.tc : Thread nD τ).loc main_arg0)
abbrev Hm : Mat 20000 5000 := m ((c.tc : Thread nD τ).loc main_arg1)
abbrev Wm : Mat 128 128 := m ((c.tc : Thread nD τ).loc main_arg2)
abbrev bm : Vct 128 := m ((c.tc : Thread nD τ).loc main_arg3)

theorem lt50 {n : ℕ} (h : n < 50) : n < cfg0.N := lt_of_lt_of_eq h Gen.N_0.symm
theorem lt50' (t : Fin cfg0.N) : t.val < 50 := lt_of_lt_of_eq t.isLt Gen.N_0

/-! ## One accumulation step -/

/-- A point's new left column: the old entry plus the block's contribution to the gathered feature. -/
theorem stepL (t : Fin cfg0.N) (xs : Vec Ideal S5000x256 .f32) (e : Fin 5000) (j : Fin 128) :
    Gen.k0_pay2 (iblk0 (V0 m ρ) c 1 t) (iblk0 (V0 m ρ) c 2 t) (iblk0 (V0 m ρ) c 0 t) xs (ix2 e (⟨j.val, by omega⟩ : Fin 256))
      = xs (ix2 e (⟨j.val, by omega⟩ : Fin 256)) + blockL (Xm m c) (Hm m c) (Wm m c) e j t.val := by
  refine (Pay.pay2_left (iblk0 (V0 m ρ) c 1 t) (iblk0 (V0 m ρ) c 2 t) (iblk0 (V0 m ρ) c 0 t) xs e j).trans ?_
  refine congrArg (xs (ix2 e (⟨j.val, by omega⟩ : Fin 256)) + ·) ?_
  unfold blockL
  refine Finset.sum_congr rfl fun r _ => ?_
  have hn : t.val * 400 + r.val < 20000 := by have := lt50' t; have := r.isLt; omega
  unfold rowL xw
  rw [dif_pos hn]
  exact congrArg₂ (· * ·) (iblk0_0_apply (V0 m ρ) c t r e)
    (Finset.sum_congr rfl fun k _ => congrArg₂ (· * ·) (iblk0_1_apply (V0 m ρ) c t r k) (congrFun (iblk0_2_eq (V0 m ρ) c t) (ix2 k j)))

/-- A point's new right column: the old entry plus the block's contribution to the degree. -/
theorem stepR (t : Fin cfg0.N) (xs : Vec Ideal S5000x256 .f32) (e : Fin 5000) (j : Fin 128) :
    Gen.k0_pay2 (iblk0 (V0 m ρ) c 1 t) (iblk0 (V0 m ρ) c 2 t) (iblk0 (V0 m ρ) c 0 t) xs (ix2 e (⟨128 + j.val, by omega⟩ : Fin 256))
      = xs (ix2 e (⟨128 + j.val, by omega⟩ : Fin 256)) + blockR (Hm m c) e t.val := by
  refine (Pay.pay2_right (iblk0 (V0 m ρ) c 1 t) (iblk0 (V0 m ρ) c 2 t) (iblk0 (V0 m ρ) c 0 t) xs e j).trans ?_
  refine congrArg (xs (ix2 e (⟨128 + j.val, by omega⟩ : Fin 256)) + ·) ?_
  unfold blockR
  refine Finset.sum_congr rfl fun r _ => ?_
  have hn : t.val * 400 + r.val < 20000 := by have := lt50' t; have := r.isLt; omega
  unfold rowR
  rw [dif_pos hn]
  exact iblk0_0_apply (V0 m ρ) c t r e

/-! ## The accumulator after each point -/

/-- The left column `j` of row `e` of the accumulator after position `n` (zero past the grid). -/
def accL (e : Fin 5000) (j : Fin 128) (n : ℕ) : EReal :=
  if h : n < 50 then (outsAt0 (V0 m ρ) c n (lt50 h)).2 (ix2 e (⟨j.val, by omega⟩ : Fin 256)) else 0
/-- The right column `128 + j`. -/
def accR (e : Fin 5000) (j : Fin 128) (n : ℕ) : EReal :=
  if h : n < 50 then (outsAt0 (V0 m ρ) c n (lt50 h)).2 (ix2 e (⟨128 + j.val, by omega⟩ : Fin 256)) else 0

theorem accL_closed (e : Fin 5000) (j : Fin 128) : ∀ t, t < 50 →
    accL m ρ c e j t = ∑ i ∈ Finset.range (t % 25 + 1), blockL (Xm m c) (Hm m c) (Wm m c) e j (t / 25 * 25 + i) := by
  refine acc_closed 50 (accL m ρ c e j) (blockL (Xm m c) (Hm m c) (Wm m c) e j) ?_ ?_
  · intro t ht h0
    unfold accL
    rw [dif_pos ht]
    refine (congrFun (acc_first (V0 m ρ) c ⟨t, lt50 ht⟩ h0) _).trans ?_
    refine (stepL m ρ c ⟨t, lt50 ht⟩ _ e j).trans ?_
    exact congrArg (· + _) (Pay.pay1_apply _)
  · intro t ht h0
    have ht' : t - 1 < 50 := by omega
    unfold accL
    rw [dif_pos ht, dif_pos ht']
    exact (congrFun (acc_later (V0 m ρ) c ⟨t, lt50 ht⟩ h0) _).trans (stepL m ρ c ⟨t, lt50 ht⟩ _ e j)

theorem accR_closed (e : Fin 5000) (j : Fin 128) : ∀ t, t < 50 →
    accR m ρ c e j t = ∑ i ∈ Finset.range (t % 25 + 1), blockR (Hm m c) e (t / 25 * 25 + i) := by
  refine acc_closed 50 (accR m ρ c e j) (blockR (Hm m c) e) ?_ ?_
  · intro t ht h0
    unfold accR
    rw [dif_pos ht]
    refine (congrFun (acc_first (V0 m ρ) c ⟨t, lt50 ht⟩ h0) _).trans ?_
    refine (stepR m ρ c ⟨t, lt50 ht⟩ _ e j).trans ?_
    exact congrArg (· + _) (Pay.pay1_apply _)
  · intro t ht h0
    have ht' : t - 1 < 50 := by omega
    unfold accR
    rw [dif_pos ht, dif_pos ht']
    exact (congrFun (acc_later (V0 m ρ) c ⟨t, lt50 ht⟩ h0) _).trans (stepR m ρ c ⟨t, lt50 ht⟩ _ e j)

/-! ## The first region's result: a plane per half -/

/-- The first region's result array, to the extended reals. -/
abbrev planes : S2x5000x256.Idx → EReal := (dat0 (V0 m ρ) c).arrAt 3 cfg0.N

theorem plane_at (h : Fin 2) (e : Fin 5000) (j' : Fin 256) :
    planes m ρ c (ix3 h e j') = (outsAt0 (V0 m ρ) c (h.val * 25 + 24) (lt50 (by have := h.isLt; omega))).2 (ix2 e j') := by
  refine (arr0_3 (V0 m ρ) c h e j').trans ?_
  have h1 : (⟨h.val * 25 + 24, lt50 (by have := h.isLt; omega)⟩ : Fin cfg0.N).val % 25 = 24 := by
    show (h.val * 25 + 24) % 25 = 24; omega
  refine (congrFun (out_last (V0 m ρ) c ⟨h.val * 25 + 24, lt50 (by have := h.isLt; omega)⟩ h1) _).trans ?_
  exact Pay.pay3_apply _ e j'

/-- The accumulation at equal positions. -/
theorem outs_congr (n n' : ℕ) (hn : n = n') (h : n < cfg0.N) (h' : n' < cfg0.N) :
    outsAt0 (V0 m ρ) c n h = outsAt0 (V0 m ρ) c n' h' := by
  subst hn; rfl

theorem plane0_L (e : Fin 5000) (j : Fin 128) : planes m ρ c (ix3 (0 : Fin 2) e ⟨j.val, by omega⟩) = accL m ρ c e j 24 := by
  refine (plane_at m ρ c 0 e ⟨j.val, by omega⟩).trans ?_
  unfold accL; rw [dif_pos (by norm_num)]
  exact congrArg (fun p => p.2 (ix2 e (⟨j.val, by omega⟩ : Fin 256))) (outs_congr m ρ c _ _ rfl _ _)
theorem plane1_L (e : Fin 5000) (j : Fin 128) : planes m ρ c (ix3 (1 : Fin 2) e ⟨j.val, by omega⟩) = accL m ρ c e j 49 := by
  refine (plane_at m ρ c 1 e ⟨j.val, by omega⟩).trans ?_
  unfold accL; rw [dif_pos (by norm_num)]
  exact congrArg (fun p => p.2 (ix2 e (⟨j.val, by omega⟩ : Fin 256))) (outs_congr m ρ c _ _ rfl _ _)
theorem plane0_R (e : Fin 5000) (j : Fin 128) : planes m ρ c (ix3 (0 : Fin 2) e ⟨128 + j.val, by omega⟩) = accR m ρ c e j 24 := by
  refine (plane_at m ρ c 0 e ⟨128 + j.val, by omega⟩).trans ?_
  unfold accR; rw [dif_pos (by norm_num)]
  exact congrArg (fun p => p.2 (ix2 e (⟨128 + j.val, by omega⟩ : Fin 256))) (outs_congr m ρ c _ _ rfl _ _)
theorem plane1_R (e : Fin 5000) (j : Fin 128) : planes m ρ c (ix3 (1 : Fin 2) e ⟨128 + j.val, by omega⟩) = accR m ρ c e j 49 := by
  refine (plane_at m ρ c 1 e ⟨128 + j.val, by omega⟩).trans ?_
  unfold accR; rw [dif_pos (by norm_num)]
  exact congrArg (fun p => p.2 (ix2 e (⟨128 + j.val, by omega⟩ : Fin 256))) (outs_congr m ρ c _ _ rfl _ _)

/-! ## The host lines: the hyperedges' mean features -/

theorem feat_at (e : Fin 5000) (j : Fin 128) :
    (V2 m ρ c main_v10 : S5000x128.Idx → EReal) (ix2 e j) = edgeFeat (Xm m c) (Hm m c) (Wm m c) e j := by
  refine (HostValue.host_v10_of (W1 m ρ c) (planes m ρ c) (W1_main_v0 m ρ c) e j).trans ?_
  rw [plane0_L, plane1_L, plane0_R, plane1_R]
  exact edgeFeat_of_halves (Xm m c) (Hm m c) (Wm m c) e j (accL m ρ c e j) (accR m ρ c e j)
    (accL_closed m ρ c e j) (accR_closed m ρ c e j)

theorem bias_at (j : Fin 128) : (V2 m ρ c main_v11 : S1x128.Idx → EReal) (ix2 (0 : Fin 1) j) = bm m c (ix1 j) :=
  (HostValue.host_v11 (W1 m ρ c) j).trans (congrFun (W1_main_arg3 m ρ c) (ix1 j))

theorem inc_at (n : Fin 20000) (e : Fin 5000) : (V2 m ρ c main_arg1 : S20000x5000.Idx → EReal) (ix2 n e) = Hm m c (ix2 n e) :=
  congrFun (W2_main_arg1 m ρ c) (ix2 n e)

/-! ## The second region's result -/

theorem result_at (t : Fin 50) (r : Fin 400) (j : Fin 128) :
    ((dat1 (V2 m ρ) c).arrAt 3 cfg1.N : S20000x128.Idx → EReal) (ix2 (⟨t.val * 400 + r.val, by have := t.isLt; have := r.isLt; omega⟩ : Fin 20000) j)
      = outAt (Xm m c) (Hm m c) (Wm m c) (bm m c) ⟨t.val * 400 + r.val, by have := t.isLt; have := r.isLt; omega⟩ j := by
  refine (arr1_3 (V2 m ρ) c t r j).trans ?_
  refine (Pay1.pay_r1 _ (V2 m ρ c main_v10) (V2 m ρ c main_v11) r j).trans ?_
  unfold outAt nodeDeg
  have hrow : ∀ e : Fin 5000, (V2 m ρ c main_arg1 : S20000x5000.Idx → EReal) (ix2 (⟨t.val * 400 + r.val, by have := t.isLt; have := r.isLt; omega⟩ : Fin 20000) e)
      = Hm m c (ix2 ⟨t.val * 400 + r.val, by have := t.isLt; have := r.isLt; omega⟩ e) := fun e => inc_at m ρ c _ e
  refine congrArg₂ max (congrArg₂ (· + ·) (congrArg₂ Ideal.div ?_ ?_) (bias_at m ρ c j)) rfl
  · exact Finset.sum_congr rfl fun e _ => congrArg₂ (· * ·) (hrow e) (feat_at m ρ c e j)
  · exact congrArg (· + eps) (Finset.sum_congr rfl fun e _ => hrow e)

/-- The idealized kernel's result array is the specification's `out` of the argument arrays. -/
theorem kernel_value :
    ((dat1 (V2 m ρ) c).arrAt 3 cfg1.N : S20000x128.Idx → EReal) = out (Xm m c) (Hm m c) (Wm m c) (bm m c) := by
  funext i
  obtain ⟨n, j, rfl⟩ : ∃ (n : Fin 20000) (j : Fin 128), i = ix2 n j := ⟨i 0, i 1, ValueIdx.eq_ix2 i⟩
  have hn : n = (⟨(n.val / 400) * 400 + n.val % 400, by have := n.isLt; omega⟩ : Fin 20000) := Fin.ext (show n.val = n.val / 400 * 400 + n.val % 400 by omega)
  rw [out_ix2, hn]
  exact result_at m ρ c ⟨n.val / 400, by have := n.isLt; omega⟩ ⟨n.val % 400, Nat.mod_lt _ (by norm_num)⟩ j

end Cert.KernelIdeal.KValue

end
-- ==== Proof.Value.RefSide.lean ====
/-
  The reference program computes the hypergraph convolution of the specification, entry by entry.

  Each operation's value is read at an index built from its coordinates: a contraction is the sum of the
  products along the contracted axis, a row or column sum is the sum along the summed axis, and a transpose
  or a spreading of a vector over an axis reads its operand at the permuted or projected coordinates. The
  arithmetic of the ideal values is the extended reals' own, and the zero word is the number 0.
-/
import proofs.«180039_j69604239999586_2_alg».proof.Proof.Gen.ReferenceIdeal.Read
import proofs.«180039_j69604239999586_2_alg».proof.Proof.Value.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The index functions at coordinate-built indices -/

/-- X·W reads row `n` of X at column `k`. -/
theorem lidx_v0 (n : Fin 20000) (j k : Fin 128) : lidx_main_v0 (ix2 n j) k = ix2 n k :=
  funext fun a => match a with | ⟨0, _⟩ => rfl | ⟨1, _⟩ => rfl
/-- X·W reads column `j` of W at row `k`. -/
theorem ridx_v0 (n : Fin 20000) (j k : Fin 128) : ridx_main_v0 (ix2 n j) k = ix2 k j :=
  funext fun a => match a with | ⟨0, _⟩ => rfl | ⟨1, _⟩ => rfl
/-- A node's degree sums row `n` of H. -/
theorem idx_v1 (n : Fin 20000) (k : Fin 5000) : idx_main_v1 (ix1 n) k = ix2 n k :=
  funext fun a => match a with | ⟨0, _⟩ => rfl | ⟨1, _⟩ => rfl
/-- A hyperedge's degree sums column `e` of H. -/
theorem idx_v4 (e : Fin 5000) (k : Fin 20000) : idx_main_v4 (ix1 e) k = ix2 k e :=
  funext fun a => match a with | ⟨0, _⟩ => rfl | ⟨1, _⟩ => rfl
/-- The transpose of H at (e, k) is H at (k, e). -/
theorem idx_v7 (e : Fin 5000) (k : Fin 20000) : idx_main_v7 (ix2 e k) = ix2 k e :=
  funext fun a => match a with | ⟨0, _⟩ => rfl | ⟨1, _⟩ => rfl
/-- Hᵀ·(X·W) reads row `e` of Hᵀ at column `k`. -/
theorem lidx_v8 (e : Fin 5000) (j : Fin 128) (k : Fin 20000) : lidx_main_v8 (ix2 e j) k = ix2 e k :=
  funext fun a => match a with | ⟨0, _⟩ => rfl | ⟨1, _⟩ => rfl
/-- Hᵀ·(X·W) reads column `j` of X·W at row `k`. -/
theorem ridx_v8 (e : Fin 5000) (j : Fin 128) (k : Fin 20000) : ridx_main_v8 (ix2 e j) k = ix2 k j :=
  funext fun a => match a with | ⟨0, _⟩ => rfl | ⟨1, _⟩ => rfl
/-- The hyperedge degrees, spread over the 128 columns, are read at the hyperedge. -/
theorem idx_v9_v10 (e : Fin 5000) (j : Fin 128) : idx_main_v9 (idx_main_v10 (ix2 e j)) = ix1 e :=
  funext fun a => match a with | ⟨0, _⟩ => rfl
/-- H·(edge features) reads row `n` of H at column `k`. -/
theorem lidx_v12 (n : Fin 20000) (j : Fin 128) (k : Fin 5000) : lidx_main_v12 (ix2 n j) k = ix2 n k :=
  funext fun a => match a with | ⟨0, _⟩ => rfl | ⟨1, _⟩ => rfl
/-- H·(edge features) reads column `j` of the edge features at row `k`. -/
theorem ridx_v12 (n : Fin 20000) (j : Fin 128) (k : Fin 5000) : ridx_main_v12 (ix2 n j) k = ix2 k j :=
  funext fun a => match a with | ⟨0, _⟩ => rfl | ⟨1, _⟩ => rfl
/-- The node degrees, spread over the 128 columns, are read at the node. -/
theorem idx_v13_v14 (n : Fin 20000) (j : Fin 128) : idx_main_v13 (idx_main_v14 (ix2 n j)) = ix1 n :=
  funext fun a => match a with | ⟨0, _⟩ => rfl
/-- The bias, spread over the 20000 rows, is read at the column. -/
theorem idx_v16_v17 (n : Fin 20000) (j : Fin 128) : idx_main_v16 (idx_main_v17 (ix2 n j)) = ix1 j :=
  funext fun a => match a with | ⟨0, _⟩ => rfl

/-! ## The stages of the reference, at coordinates -/

variable (x0 : (⟨S20000x128, .f32⟩ : BufTy).Contents (Elt Ideal)) (x1 : (⟨S20000x5000, .f32⟩ : BufTy).Contents (Elt Ideal))
  (x2 : (⟨S128x128, .f32⟩ : BufTy).Contents (Elt Ideal)) (x3 : (⟨S128, .f32⟩ : BufTy).Contents (Elt Ideal))

/-- The first product is the projected features. -/
theorem v0_at (n : Fin 20000) (j : Fin 128) :
    val_main_v0 (F := Ideal) x0 x2 (ix2 n j) = Cert.HyperConv.xw x0 x2 n j := by
  rw [val_main_v0_apply]
  simp only [lidx_v0, ridx_v0]
  rfl

/-- The row sums of H, with the guard added, are the node degrees plus ε. -/
theorem v3_at (n : Fin 20000) :
    val_main_v3 (F := Ideal) x1 (ix1 n) = Cert.HyperConv.nodeDeg x1 n + Cert.HyperConv.eps := by
  rw [val_main_v3_apply, val_main_v1_apply, val_main_v2_apply, val_main_cst_apply, val_main_cst_0_apply]
  simp only [idx_v1, Ideal.addf_def, Ideal.ofBits_def, Ideal.ofBits_zero_f32, zero_add]
  rfl

/-- The column sums of H, with the guard added, are the hyperedge degrees plus ε. -/
theorem v6_at (e : Fin 5000) :
    val_main_v6 (F := Ideal) x1 (ix1 e) = Cert.HyperConv.edgeDeg x1 e + Cert.HyperConv.eps := by
  rw [val_main_v6_apply, val_main_v4_apply, val_main_v5_apply, val_main_cst_1_apply, val_main_cst_2_apply]
  simp only [idx_v4, Ideal.addf_def, Ideal.ofBits_def, Ideal.ofBits_zero_f32, zero_add]
  rfl

/-- The product of the transposed incidence matrix with the projected features gathers them on a hyperedge. -/
theorem v8_at (e : Fin 5000) (j : Fin 128) :
    val_main_v8 (F := Ideal) x0 x1 x2 (ix2 e j) = Cert.HyperConv.edgeSum x0 x1 x2 e j := by
  rw [val_main_v8_apply]
  simp only [lidx_v8, ridx_v8, val_main_v7_apply, idx_v7, v0_at]
  rfl

/-- The first quotient is the hyperedge's mean feature. -/
theorem v11_at (e : Fin 5000) (j : Fin 128) :
    val_main_v11 (F := Ideal) x0 x1 x2 (ix2 e j) = Cert.HyperConv.edgeFeat x0 x1 x2 e j := by
  rw [val_main_v11_apply, val_main_v10_apply, val_main_v9_apply, idx_v9_v10, v8_at, v6_at, Ideal.hostDivf_def]
  rfl

/-- The second product sums the mean features of a node's hyperedges. -/
theorem v12_at (n : Fin 20000) (j : Fin 128) :
    val_main_v12 (F := Ideal) x0 x1 x2 (ix2 n j)
      = ∑ e : Fin 5000, x1 (ix2 n e) * Cert.HyperConv.edgeFeat x0 x1 x2 e j := by
  rw [val_main_v12_apply]
  simp only [lidx_v12, ridx_v12, v11_at]

/-- The reference's result at (n, j) is the specification's. -/
theorem v19_at (n : Fin 20000) (j : Fin 128) :
    val_main_v19 (F := Ideal) x0 x1 x2 x3 (ix2 n j) = Cert.HyperConv.outAt x0 x1 x2 x3 n j := by
  rw [val_main_v19_apply, val_main_v18_apply, val_main_v15_apply, v12_at, val_main_v14_apply, val_main_v13_apply,
    idx_v13_v14, v3_at, val_main_v17_apply, val_main_v16_apply, idx_v16_v17, val_main_call0_v0_apply,
    val_main_call0_cst_apply, Ideal.maximumf_def, Ideal.addf_def, Ideal.hostDivf_def, Ideal.ofBits_def,
    Ideal.ofBits_zero_f32]
  rfl

theorem ref_eq (x0 : (⟨S20000x128, .f32⟩ : BufTy).Contents (Elt Ideal)) (x1 : (⟨S20000x5000, .f32⟩ : BufTy).Contents (Elt Ideal)) (x2 : (⟨S128x128, .f32⟩ : BufTy).Contents (Elt Ideal)) (x3 : (⟨S128, .f32⟩ : BufTy).Contents (Elt Ideal)) :
    Cert.ReferenceIdeal.Read.val_main_v19 (F := Ideal) x0 x1 x2 x3 = Cert.HyperConv.out x0 x1 x2 x3 := by
  funext i
  obtain ⟨n, j, rfl⟩ : ∃ (n : Fin 20000) (j : Fin 128), i = ValueIdx.ix2 n j := ⟨i 0, i 1, ValueIdx.eq_ix2 i⟩
  rw [v19_at, Cert.HyperConv.out_ix2]

end Cert.ReferenceIdeal.RefValue

end
-- ==== Proof.lean ====
/-
  Hypergraph convolution, a two-pass kernel against its plain reference, equal on the extended reals.

  The kernel's first pass streams the incidence matrix `H` (20000 nodes × 5000 hyperedges) in 50 blocks of 400 rows,
  25 blocks per half: at each block it projects the block's features (`x · W`), appends a column block of ones, and
  adds `hᵀ · [x·W | 1]` to an accumulator that is zeroed at the first block of a half and copied out at the last. The
  host adds the two halves' partial results, which gives `Hᵀ·(X·W)` in the left columns and the hyperedge degrees
  `∑ n, H n e` in the right ones (each product `H n e · 1` is `H n e`), and divides the former by the latter plus ε.
  The second pass computes, 400 rows at a time, `max ((H · M) / (row sums of H + ε) + bias) 0`. The reference computes
  the same four quantities with whole-array products and sums. The two agree entry by entry because a sum over the
  20000 nodes may be taken in 2 × 25 × 400 pieces in any grouping (addition on the extended reals is commutative and
  associative, and `0 + x = x`): no finiteness of the inputs is used, and ε is the same binary32 word on both sides.

  The frames: each program runs to the end, faults nowhere, and leaves its four argument arrays as launched. For the
  two kernel programs this is the run of @main as first region, host lines, second region, with every unscoped buffer
  named at each boundary (Proof/Kernel/Run.lean at the word level, Proof/KernelIdeal/Run.lean at the extended
  reals; one text, generic in the float instance); for the reference it is its run with the result dropped.
  `preserves` has no conjunct: the idealization rewrote nothing.
-/
import proofs.«180039_j69604239999586_2_alg».proof.Defs
import proofs.«180039_j69604239999586_2_alg».proof.Proof.Gen.Kernel
import proofs.«180039_j69604239999586_2_alg».proof.Proof.Gen.KernelIdeal
import proofs.«180039_j69604239999586_2_alg».proof.Proof.Gen.ReferenceIdeal
import proofs.«180039_j69604239999586_2_alg».proof.Proof.Gen.Pre_finite_inputs
import proofs.«180039_j69604239999586_2_alg».proof.Proof.Gen.ReferenceIdeal.Read
import proofs.«180039_j69604239999586_2_alg».proof.Proof.Kernel.Run
import proofs.«180039_j69604239999586_2_alg».proof.Proof.KernelIdeal.Run
import proofs.«180039_j69604239999586_2_alg».proof.Proof.Value.KernelValue
import proofs.«180039_j69604239999586_2_alg».proof.Proof.Value.RefSide

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the specification's `out` of the argument arrays: the kernel by its run and the value of its
    result array, the reference by its run read one operation at a time; the arguments agree by hypothesis. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.HyperConv.out (Cert.KernelIdeal.KValue.Xm m c) (Cert.KernelIdeal.KValue.Hm m c)
    (Cert.KernelIdeal.KValue.Wm m c) (Cert.KernelIdeal.KValue.bm m c), ?_, ?_⟩
  · exact (θ_run Cert.KernelIdeal.defs _ _).mono
      (fun _ h c => ⟨(h c).1.trans (Cert.KernelIdeal.KValue.kernel_value m ρ c), (h c).2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v19_eq, Cert.ReferenceIdeal.RefValue.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
